-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x133 : Shape := ⟨2, ![200000, 133]⟩
abbrev S400000x147 : Shape := ⟨2, ![400000, 147]⟩
abbrev S200000x4 : Shape := ⟨2, ![200000, 4]⟩
abbrev S400000 : Shape := ⟨1, ![400000]⟩
abbrev S200000 : Shape := ⟨1, ![200000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S200000x133 : S_.BroadcastsInDim S200000x133 (![] : Fin 0 → Fin S200000x133.rank)
  reducesTo_S200000x133_S_d0_1 : S200000x133.ReducesTo [0, 1] S_
  h_S_ : 0 < S_.numel
  bcast_S_S400000x147 : S_.BroadcastsInDim S400000x147 (![] : Fin 0 → Fin S400000x147.rank)
  reducesTo_S400000x147_S_d0_1 : S400000x147.ReducesTo [0, 1] S_
  bcast_S_S147x128 : S_.BroadcastsInDim S147x128 (![] : Fin 0 → Fin S147x128.rank)
  reducesTo_S147x128_S_d0_1 : S147x128.ReducesTo [0, 1] S_
  bcast_S_S128x128 : S_.BroadcastsInDim S128x128 (![] : Fin 0 → Fin S128x128.rank)
  reducesTo_S128x128_S_d0_1 : S128x128.ReducesTo [0, 1] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S256 .f32) (main_arg12 : FVec F S256x1 .f32) (main_arg13 : FVec F S1 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg12
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg8 : FVec F S261x128 .f32) (main_arg9 : FVec F S128 .f32) (main_arg10 : FVec F S128x256 .f32) (main_arg11 : FVec F S256 .f32) (main_arg12 : FVec F S256x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S261x128 .f32 := Host.absf main_arg8
  let main_cst_6 : FVec F S_ .f32 := constant S_ .f32 0x7F800000#32
  let main_v20 : FVec F S261x128 .f32 := broadcastInDim S261x128 ![] bcast_S_S261x128 main_cst_6
  let main_v21 : IVec S261x128 1 := cmpf .olt main_v19 main_v20
  let main_c_7 : IVec S_ 1 := constantI S_ 1 1#1
  let main_v22 : IVec S_ 1 := (fun x v => Host.reduce IntOp.andi x v reducesTo_S261x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_v33

def fn {F : FTy → Type} [FloatOps F] (main_arg0 : FVec F S200000x133 .f32) (main_arg1 : FVec F S400000x147 .f32) (main_arg2 : IVec S200000x4 32) (main_arg3 : IVec S400000 32) (main_arg4 : IVec S400000 32) (main_arg5 : IVec S200000 32) (main_arg6 : FVec F S147x128 .f32) (main_arg7 : FVec F S128x128 .f32) (main_arg8 : FVec F S261x128 .f32) (main_arg9 : FVec F S128 .f32) (main_arg10 : FVec F S128x256 .f32) (main_arg11 : FVec F S256 .f32) (main_arg12 : FVec F S256x1 .f32) (main_arg13 : FVec F S1 .f32) : IVec S_ 1 :=
  let main_v0 : FVec F S200000x133 .f32 := Host.absf main_arg0
  let main_cst : FVec F S_ .f32 := constant S_ .f32 0x7F800000#32
  let main_v1 : FVec F S200000x133 .f32 := broadcastInDim S200000x133 ![] bcast_S_S200000x133 main_cst
  let main_v2 : IVec S200000x133 1 := cmpf .olt main_v0 main_v1
  let main_c : IVec S_ 1 := constantI S_ 1 1#1
  let main_v3 : IVec S_ 1 := (fun x v => Host.reduce IntOp.andi x v reducesTo_S200000x133_S_d0_1 h_S_) main_v2 main_c
  let main_v4 : FVec F S400000x147 .f32 := Host.absf main_arg1
  let main_cst_0 : FVec F S_ .f32 := constant S_ .f32 0x7F800000#32
  let main_v5 : FVec F S400000x147 .f32 := broadcastInDim S400000x147 ![] bcast_S_S400000x147 main_cst_0
  let main_v6 : IVec S400000x147 1 := cmpf .olt main_v4 main_v5
  let main_c_1 : IVec S_ 1 := constantI S_ 1 1#1
  let main_v7 : IVec S_ 1 := (fun x v => Host.reduce IntOp.andi x v reducesTo_S400000x147_S_d0_1 h_S_) main_v6 main_c_1
  let main_v8 : IVec S_ 1 := andi main_v3 main_v7
  let main_v9 : FVec F S147x128 .f32 := Host.absf main_arg6
  let main_cst_2 : FVec F S_ .f32 := constant S_ .f32 0x7F800000#32
  let main_v10 : FVec F S147x128 .f32 := broadcastInDim S147x128 ![] bcast_S_S147x128 main_cst_2
  let main_v11 : IVec S147x128 1 := cmpf .olt main_v9 main_v10
  let main_c_3 : IVec S_ 1 := constantI S_ 1 1#1
  let main_v12 : IVec S_ 1 := (fun x v => Host.reduce IntOp.andi x v reducesTo_S147x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_v13 main_v16
-- ==== Kernel.lean ====
abbrev S200000x133 : Shape := ⟨2, ![200000, 133]⟩
abbrev S400000x147 : Shape := ⟨2, ![400000, 147]⟩
abbrev S200000x4 : Shape := ⟨2, ![200000, 4]⟩
abbrev S400000 : Shape := ⟨1, ![400000]⟩
abbrev S200000 : Shape := ⟨1, ![200000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S400000x128 : Shape := ⟨2, ![400000, 128]⟩
abbrev S4000x147 : Shape := ⟨2, ![4000, 147]⟩
abbrev S4000x128 : Shape := ⟨2, ![4000, 128]⟩
abbrev S_ : Shape := ⟨0, ![]⟩
abbrev S200000x4x1 : Shape := ⟨3, ![200000, 4, 1]⟩
abbrev S200000x4x128 : Shape := ⟨3, ![200000, 4, 128]⟩
abbrev S200000x128 : Shape := ⟨2, ![200000, 128]⟩
abbrev S400000x1 : Shape := ⟨2, ![400000, 1]⟩
abbrev S133x128 : Shape := ⟨2, ![133, 128]⟩
abbrev S1x128 : Shape := ⟨2, ![1, 128]⟩
abbrev S4000x133 : Shape := ⟨2, ![4000, 133]⟩
abbrev S10000x128 : Shape := ⟨2, ![10000, 128]⟩
abbrev S200000x1 : Shape := ⟨2, ![200000, 1]⟩
abbrev S10000 : Shape := ⟨1, ![10000]⟩
abbrev S10000x1 : Shape := ⟨2, ![10000, 1]⟩
abbrev S1x256 : Shape := ⟨2, ![1, 256]⟩
abbrev S1x1 : Shape := ⟨2, ![1, 1]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 214
  | .vmem => 59
  | .smem => 0
  | _ => 0

abbrev hbmTy0_0 (i : Nat) : BufTy := match i % 128 with
  | 0 => ⟨S200000x133, .f32⟩
  | 1 => ⟨S400000x147, .f32⟩
  | 2 => ⟨S200000x4, .i32⟩
  | 3 => ⟨S400000, .i32⟩
  | 4 => ⟨S400000, .i32⟩
  | 5 => ⟨S200000, .i32⟩
  | 6 => ⟨S147x128, .f32⟩
  | 7 => ⟨S128x128, .f32⟩
  | 8 => ⟨S261x128, .f32⟩
  | 9 => ⟨S128, .f32⟩
  | 10 => ⟨S128x256, .f32⟩
  | 11 => ⟨S256, .f32⟩
  | 12 => ⟨S256x1, .f32⟩
  | 13 => ⟨S1, .f32⟩
  | 14 => ⟨S400000x128, .f32⟩
  | 15 => ⟨S400000x128, .f32⟩
  | 16 => ⟨S_, .i32⟩
  | 17 => ⟨S200000x4, .i32⟩
  | 18 => ⟨S200000x4, .i1⟩
  | 19 => ⟨S_, .i32⟩
  | 20 => ⟨S200000x4, .i32⟩
  | 21 => ⟨S200000x4, .i32⟩
  | 22 => ⟨S200000x4, .i32⟩
  | 23 => ⟨S200000x4x1, .i32⟩
  | 24 => ⟨S200000x4x128, .f32⟩
  | 25 => ⟨S_, .f32⟩
  | 26 => ⟨S200000x128, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x128, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S400000x128, .f32⟩
  | 46 => ⟨S400000x128, .f32⟩
  | 47 => ⟨S_, .i32⟩
  | 48 => ⟨S200000x4, .i32⟩
  | 49 => ⟨S200000x4, .i1⟩
  | 50 => ⟨S_, .i32⟩
  | 51 => ⟨S200000x4, .i32⟩
  | 52 => ⟨S200000x4, .i32⟩
  | 53 => ⟨S200000x4, .i32⟩
  | 54 => ⟨S200000x4x1, .i32⟩
  | 55 => ⟨S200000x4x128, .f32⟩
  | 56 => ⟨S_, .f32⟩
  | 57 => ⟨S200000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S400000x128, .f32⟩
  | 77 => ⟨S400000x128, .f32⟩
  | 78 => ⟨S_, .i32⟩
  | 79 => ⟨S200000x4, .i32⟩
  | 80 => ⟨S200000x4, .i1⟩
  | 81 => ⟨S_, .i32⟩
  | 82 => ⟨S200000x4, .i32⟩
  | 83 => ⟨S200000x4, .i32⟩
  | 84 => ⟨S200000x4, .i32⟩
  | 85 => ⟨S200000x4x1, .i32⟩
  | 86 => ⟨S200000x4x128, .f32⟩
  | 87 => ⟨S_, .f32⟩
  | 88 => ⟨S200000x128, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x128, .f32⟩
  | 107 => ⟨S400000x128, .f32⟩
  | 108 => ⟨S400000x128, .f32⟩
  | 109 => ⟨S_, .i32⟩
  | 110 => ⟨S200000x4, .i32⟩
  | 111 => ⟨S200000x4, .i1⟩
  | 112 => ⟨S_, .i32⟩
  | 113 => ⟨S200000x4, .i32⟩
  | 114 => ⟨S200000x4, .i32⟩
  | 115 => ⟨S200000x4, .i32⟩
  | 116 => ⟨S200000x4x1, .i32⟩
  | 117 => ⟨S200000x4x128, .f32⟩
  | 118 => ⟨S_, .f32⟩
  | 119 => ⟨S200000x128, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S200000x133, .f32⟩

abbrev hbmTy0_1 (i : Nat) : BufTy := match i % 128 with
  | 0 => ⟨S400000x128, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .f32⟩
  | 10 => ⟨S400000x128, .f32⟩
  | 11 => ⟨S400000x128, .f32⟩
  | 12 => ⟨S_, .i32⟩
  | 13 => ⟨S200000x4, .i32⟩
  | 14 => ⟨S200000x4, .i1⟩
  | 15 => ⟨S_, .i32⟩
  | 16 => ⟨S200000x4, .i32⟩
  | 17 => ⟨S200000x4, .i32⟩
  | 18 => ⟨S200000x4, .i32⟩
  | 19 => ⟨S200000x4x1, .i32⟩
  | 20 => ⟨S200000x4x128, .f32⟩
  | 21 => ⟨S_, .f32⟩
  | 22 => ⟨S200000x128, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x128, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x128, .f32⟩
  | 41 => ⟨S400000x128, .f32⟩
  | 42 => ⟨S400000x128, .f32⟩
  | 43 => ⟨S_, .i32⟩
  | 44 => ⟨S200000x4, .i32⟩
  | 45 => ⟨S200000x4, .i1⟩
  | 46 => ⟨S_, .i32⟩
  | 47 => ⟨S200000x4, .i32⟩
  | 48 => ⟨S200000x4, .i32⟩
  | 49 => ⟨S200000x4, .i32⟩
  | 50 => ⟨S200000x4x1, .i32⟩
  | 51 => ⟨S200000x4x128, .f32⟩
  | 52 => ⟨S_, .f32⟩
  | 53 => ⟨S200000x128, .f32⟩
  | 54 => ⟨S133x128, .f32⟩
  | 55 => ⟨S128x128, .f32⟩
  | 56 => ⟨S1x128, .f32⟩
  | 57 => ⟨S200000x128, .f32⟩
  | 58 => ⟨S_, .f32⟩
  | 59 => ⟨S10000x128, .f32⟩
  | 60 => ⟨S200000x1, .i32⟩
  | 61 => ⟨S10000x128, .f32⟩
  | 62 => ⟨S_, .f32⟩
  | 63 => ⟨S200000, .f32⟩
  | 64 => ⟨S_, .f32⟩
  | 65 => ⟨S10000, .f32⟩
  | 66 => ⟨S200000x1, .i32⟩
  | 67 => ⟨S10000, .f32⟩
  | 68 => ⟨S10000x1, .f32⟩
  | 69 => ⟨S_, .f32⟩
  | 70 => ⟨S10000x1, .f32⟩
  | 71 => ⟨S10000x1, .i1⟩
  | 72 => ⟨S_, .f32⟩
  | 73 => ⟨S10000, .f32⟩
  | 74 => ⟨S10000, .f32⟩
  | 75 => ⟨S10000x1, .f32⟩
  | 76 => ⟨S10000x128, .f32⟩
  | 77 => ⟨S10000x128, .f32⟩
  | 78 => ⟨S_, .f32⟩
  | 79 => ⟨S_, .f32⟩
  | 80 => ⟨S10000x128, .i1⟩
  | 81 => ⟨S10000x128, .f32⟩
  | 82 => ⟨S10000x128, .f32⟩
  | 83 => ⟨S1x256, .f32⟩
  | 84 => ⟨S1x1, .f32⟩
  | 85 => ⟨S10000x1, .f32⟩
  | _ => ⟨S200000x133, .f32⟩

abbrev hbmTy (i : Nat) : BufTy := match i / 128 with
  | 0 => hbmTy0_0 i
  | 1 => hbmTy0_1 i
  | _ => ⟨S200000x133, .f32⟩

abbrev bufTy : (tb : Table) → Fin (tcTables nBuf tb) → BufTy
  | .hbm, ⟨i, _⟩ => hbmTy i
  | .local _ .vmem, ⟨0, _⟩ => ⟨S4000x147, .f32⟩
  | .local _ .vmem, ⟨1, _⟩ => ⟨S4000x147, .f32⟩
  | .local _ .vmem, ⟨2, _⟩ => ⟨S147x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S128x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S128x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S128x128, .f32⟩
  | .local _ .vmem, ⟨40, _⟩ => ⟨S4000x128, .f32⟩
  | .local _ .vmem, ⟨41, _⟩ => ⟨S4000x128, .f32⟩
  | .local _ .vmem, ⟨42, _⟩ => ⟨S4000x133, .f32⟩
  | .local _ .vmem, ⟨43, _⟩ => ⟨S4000x133, .f32⟩
  | .local _ .vmem, ⟨44, _⟩ => ⟨S4000x128, .f32⟩
  | .local _ .vmem, ⟨45, _⟩ => ⟨S4000x128, .f32⟩
  | .local _ .vmem, ⟨46, _⟩ => ⟨S133x128, .f32⟩
  | .local _ .vmem, ⟨47, _⟩ => ⟨S128x128, .f32⟩
  | .local _ .vmem, ⟨48, _⟩ => ⟨S1x128, .f32⟩
  | .local _ .vmem, ⟨49, _⟩ => ⟨S4000x128, .f32⟩
  | .local _ .vmem, ⟨50, _⟩ => ⟨S4000x128, .f32⟩
  | .local _ .vmem, ⟨51, _⟩ => ⟨S2000x128, .f32⟩
  | .local _ .vmem, ⟨52, _⟩ => ⟨S2000x128, .f32⟩
  | .local _ .vmem, ⟨53, _⟩ => ⟨S128x256, .f32⟩
  | .local _ .vmem, ⟨54, _⟩ => ⟨S1x256, .f32⟩
  | .local _ .vmem, ⟨55, _⟩ => ⟨S256x1, .f32⟩
  | .local _ .vmem, ⟨56, _⟩ => ⟨S1x1, .f32⟩
  | .local _ .vmem, ⟨57, _⟩ => ⟨S2000x1, .f32⟩
  | .local _ .vmem, ⟨58, _⟩ => ⟨S2000x1, .f32⟩
  | _, _ => ⟨S200000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_c_15 : Ref sig .tc := ⟨.hbm, 89, rfl⟩
abbrev main_v57 : Ref sig .tc := ⟨.hbm, 90, rfl⟩
abbrev main_v58 : Ref sig .tc := ⟨.hbm, 91, rfl⟩
abbrev main_c_16 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_17 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_19 : Ref sig .tc := ⟨.hbm, 109, rfl⟩
abbrev main_v73 : Ref sig .tc := ⟨.hbm, 110, rfl⟩
abbrev main_v74 : Ref sig .tc := ⟨.hbm, 111, rfl⟩
abbrev main_c_20 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_21 : Ref sig .tc := ⟨.hbm, 118, rfl⟩
abbrev main_v80 : Ref sig .tc := ⟨.hbm, 119, rfl⟩
abbrev main_c_22 : Ref sig .tc := ⟨.hbm, 120, rfl⟩
abbrev main_v81 : Ref sig .tc := ⟨.hbm, 121, rfl⟩
abbrev main_v82 : Ref sig .tc := ⟨.hbm, 122, rfl⟩
abbrev main_c_23 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_24 : Ref sig .tc := ⟨.hbm, 129, rfl⟩
abbrev main_v88 : Ref sig .tc := ⟨.hbm, 130, rfl⟩
abbrev main_v89 : Ref sig .tc := ⟨.hbm, 131, rfl⟩
abbrev main_c_25 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_26 : Ref sig .tc := ⟨.hbm, 140, rfl⟩
abbrev main_v97 : Ref sig .tc := ⟨.hbm, 141, rfl⟩
abbrev main_v98 : Ref sig .tc := ⟨.hbm, 142, rfl⟩
abbrev main_c_27 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_28 : Ref sig .tc := ⟨.hbm, 149, rfl⟩
abbrev main_v104 : Ref sig .tc := ⟨.hbm, 150, rfl⟩
abbrev main_c_29 : Ref sig .tc := ⟨.hbm, 151, rfl⟩
abbrev main_v105 : Ref sig .tc := ⟨.hbm, 152, rfl⟩
abbrev main_v106 : Ref sig .tc := ⟨.hbm, 153, rfl⟩
abbrev main_c_30 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_31 : Ref sig .tc := ⟨.hbm, 160, rfl⟩
abbrev main_v112 : Ref sig .tc := ⟨.hbm, 161, rfl⟩
abbrev main_v113 : Ref sig .tc := ⟨.hbm, 162, rfl⟩
abbrev main_c_32 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_33 : Ref sig .tc := ⟨.hbm, 171, rfl⟩
abbrev main_v121 : Ref sig .tc := ⟨.hbm, 172, rfl⟩
abbrev main_v122 : Ref sig .tc := ⟨.hbm, 173, rfl⟩
abbrev main_c_34 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_35 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_36 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_37 : Ref sig .tc := ⟨.hbm, 190, rfl⟩
abbrev main_v136 : Ref sig .tc := ⟨.hbm, 191, rfl⟩
abbrev main_cst_38 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_39 : Ref sig .tc := ⟨.hbm, 197, rfl⟩
abbrev main_v141 : Ref sig .tc := ⟨.hbm, 198, rfl⟩
abbrev main_v142 : Ref sig .tc := ⟨.hbm, 199, rfl⟩
abbrev main_cst_40 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_41 : Ref sig .tc := ⟨.hbm, 206, rfl⟩
abbrev main_call0_v0 : Ref sig .tc := ⟨.hbm, 207, rfl⟩
abbrev main_call0_v1 : Ref sig .tc := ⟨.hbm, 208, rfl⟩
abbrev main_call0_v2 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg5_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem5_1 : DmaSem sig := 58

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x133 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S133x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  inb_S4000x147_S4000x147_0_0 : ∀ a, (![0, 0] : Fin 2 → Nat) a + S4000x147.size a ≤ S4000x147.size a
  h_S4000x147 : 0 < S4000x147.numel
  bitsLt_bf16_f32 : FTy.bits .bf16 < FTy.bits .f32
  inb_S147x128_S147x128_0_0 : ∀ a, (![0, 0] : Fin 2 → Nat) a + S147x128.size a ≤ S147x128.size a
  h_S147x128 : 0 < S147x128.numel
  inb_S4000x128_S4000x128_0_0 : ∀ a, (![0, 0] : Fin 2 → Nat) a + S4000x128.size a ≤ S4000x128.size a
  h_S4000x128 : 0 < S4000x128.numel
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  reducesTo_S200000x4x128_S200000x128_d1 : S200000x4x128.ReducesTo [1] S200000x128
  h_S_ : 0 < S_.numel
  bcast_S_S400000 : S_.BroadcastsInDim S400000 (![] : Fin 0 → Fin S400000.rank)
  bcast_S400000_S400000x1_0 : S400000.BroadcastsInDim S400000x1 (![0] : Fin 1 → Fin S400000x1.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  slices_S261x128_S133x128_0_0 : S261x128.Slices ![0, 0] S133x128
  slices_S261x128_S128x128_133_0 : S261x128.Slices ![133, 0] S128x128
  shapeCasts_S128_S1x128 : S128.ShapeCasts S1x128
  inb_S4000x133_S4000x133_0_0 : ∀ a, (![0, 0] : Fin 2 → Nat) a + S4000x133.size a ≤ S4000x133.size a
  h_S4000x133 : 0 < S4000x133.numel
  inb_S133x128_S133x128_0_0 : ∀ a, (![0, 0] : Fin 2 → Nat) a + S133x128.size a ≤ S133x128.size a
  h_S133x128 : 0 < S133x128.numel
  shapeCasts_S133x128_S133x128 : S133x128.ShapeCasts S133x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S10000x128 : S_.BroadcastsInDim S10000x128 (![] : Fin 0 → Fin S10000x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  shapeCasts_S256_S1x256 : S256.ShapeCasts S1x256
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S4000x147_S147x128_S4000x128_1_0_0_1_n_n_wf : DotDims.WF S4000x147 S147x128 S4000x128 [1] [0] [0] [1] [] []
  gather_S400000x128_S200000x4x1_S200000x4x128_2_0_n_n_0_2_1128_wf : GatherDims.WF S400000x128 S200000x4x1 S200000x4x128 [2] [0] [] [0] [] 2 ![1, 128]
  gather_S400000x128_S400000x1_S400000x128_1_0_n_n_0_1_1128_wf : GatherDims.WF S400000x128 S400000x1 S400000x128 [1] [0] [] [0] [] 1 ![1, 128]
  gather_S200000x128_S400000x1_S400000x128_1_0_n_n_0_1_1128_wf : GatherDims.WF S200000x128 S400000x1 S400000x128 [1] [0] [] [0] [] 1 ![1, 128]
  dot_S4000x128_S128x128_S4000x128_1_0_0_1_n_n_wf : DotDims.WF S4000x128 S128x128 S4000x128 [1] [0] [0] [1] [] []
  dot_S4000x133_S133x128_S4000x128_1_0_0_1_n_n_wf : DotDims.WF S4000x133 S133x128 S4000x128 [1] [0] [0] [1] [] []
  scatter_S10000x128_S200000x1_S200000x128_1_0_0_1_wf : ScatterDims.WF S10000x128 S200000x1 S200000x128 [1] [0] [0] 1
  scatter_S10000_S200000x1_S200000_n_0_0_1_wf : ScatterDims.WF S10000 S200000x1 S200000 [] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x147.size a ≤ S400000x147.size a
  hwx0_0 : ∀ i : grid0.Coords, EltTy.bits .f32 = 32 ∨ (Rect.block (s := S400000x147) S4000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x128.size a ≤ S147x128.size a
  hwx0_1 : ∀ i : grid0.Coords, EltTy.bits .f32 = 32 ∨ (Rect.block (s := S147x128) S147x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S400000x128.size a
  hwx0_3 : ∀ i : grid0.Coords, EltTy.bits .f32 = 32 ∨ (Rect.block (s := S400000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S400000x128.size a
  hwx1_3 : ∀ i : grid1.Coords, EltTy.bits .f32 = 32 ∨ (Rect.block (s := S400000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S400000x128.size a
  hwx2_3 : ∀ i : grid2.Coords, EltTy.bits .f32 = 32 ∨ (Rect.block (s := S400000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S400000x128.size a
  hwx3_1 : ∀ i : grid3.Coords, EltTy.bits .f32 = 32 ∨ (Rect.block (s := S400000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S400000x128.size a
  hwx3_3 : ∀ i : grid3.Coords, EltTy.bits .f32 = 32 ∨ (Rect.block (s := S400000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S400000x128.size a
  hwx4_0 : ∀ i : grid4.Coords, EltTy.bits .f32 = 32 ∨ (Rect.block (s := S400000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S400000x128.size a
  hwx4_1 : ∀ i : grid4.Coords, EltTy.bits .f32 = 32 ∨ (Rect.block (s := S400000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S400000x128.size a
  hwx4_3 : ∀ i : grid4.Coords, EltTy.bits .f32 = 32 ∨ (Rect.block (s := S400000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S400000x128.size a
  hwx5_0 : ∀ i : grid5.Coords, EltTy.bits .f32 = 32 ∨ (Rect.block (s := S400000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S400000x128.size a
  hwx5_1 : ∀ i : grid5.Coords, EltTy.bits .f32 = 32 ∨ (Rect.block (s := S400000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S400000x128.size a
  hwx5_3 : ∀ i : grid5.Coords, EltTy.bits .f32 = 32 ∨ (Rect.block (s := S400000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x133.size a ≤ S200000x133.size a
  hwx6_0 : ∀ i : grid6.Coords, EltTy.bits .f32 = 32 ∨ (Rect.block (s := S200000x133) S4000x133.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S200000x128.size a
  hwx6_1 : ∀ i : grid6.Coords, EltTy.bits .f32 = 32 ∨ (Rect.block (s := S200000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S133x128.size a ≤ S133x128.size a
  hwx6_2 : ∀ i : grid6.Coords, EltTy.bits .f32 = 32 ∨ (Rect.block (s := S133x128) S133x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S200000x128.size a
  hwx6_5 : ∀ i : grid6.Coords, EltTy.bits .f32 = 32 ∨ (Rect.block (s := S200000x128) S4000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S10000x128.size a
  hwx7_0 : ∀ i : grid7.Coords, EltTy.bits .f32 = 32 ∨ (Rect.block (s := S10000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x256.size a ≤ S128x256.size a
  hwx7_1 : ∀ i : grid7.Coords, EltTy.bits .f32 = 32 ∨ (Rect.block (s := S128x256) S128x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x1.size a ≤ S256x1.size a
  hwx7_3 : ∀ i : grid7.Coords, EltTy.bits .f32 = 32 ∨ (Rect.block (s := S256x1) S256x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x1.size a ≤ S10000x1.size a
  hwx7_5 : ∀ i : grid7.Coords, EltTy.bits .f32 = 32 ∨ (Rect.block (s := S10000x1) S2000x1.size (cc7_transform_5 i) (hinb7_5 i)).WholeWords (EltTy.packing .f32)

variable [Facts₀]

def dot_S4000x147_S147x128_S4000x128_1_0_0_1_n_n : DotDims S4000x147 S147x128 S4000x128 where
  lhsContracting := [1]
  rhsContracting := [0]
  lhsNonContracting := [0]
  rhsNonContracting := [1]
  lhsBatch := []
  rhsBatch := []
  wf := dot_S4000x147_S147x128_S4000x128_1_0_0_1_n_n_wf
def gather_S400000x128_S200000x4x1_S200000x4x128_2_0_n_n_0_2_1128 : GatherDims S400000x128 S200000x4x1 S200000x4x128 where
  offsetDims := [2]
  collapsedSliceDims := [0]
  operandBatchingDims := []
  startIndicesBatchingDims := []
  startIndexMap := [0]
  indexVectorDim := 2
  sliceSizes := ![1, 128]
  wf := gather_S400000x128_S200000x4x1_S200000x4x128_2_0_n_n_0_2_1128_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x133_S133x128_S4000x128_1_0_0_1_n_n : DotDims S4000x133 S133x128 S4000x128 where
  lhsContracting := [1]
  rhsContracting := [0]
  lhsNonContracting := [0]
  rhsNonContracting := [1]
  lhsBatch := []
  rhsBatch := []
  wf := dot_S4000x133_S133x128_S4000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg1) S4000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_0) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0_0) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v119) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0_0) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S4000x133.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v128) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v129) S133x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v132) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v148) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v149) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S256x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v150) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v151) S2000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S200000x133 : Shape := ⟨2, ![200000, 133]⟩
abbrev S400000x147 : Shape := ⟨2, ![400000, 147]⟩
abbrev S200000x4 : Shape := ⟨2, ![200000, 4]⟩
abbrev S400000 : Shape := ⟨1, ![400000]⟩
abbrev S200000 : Shape := ⟨1, ![200000]⟩
abbrev S147x128 : Shape := ⟨2, ![147, 128]⟩
abbrev S128x128 : Shape := ⟨2, ![128, 128]⟩
abbrev S261x128 : Shape := ⟨2, ![261, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S400000x128 : Shape := ⟨2, ![400000, 128]⟩
abbrev S_ : Shape := ⟨0, ![]⟩
abbrev S200000x4x1 : Shape := ⟨3, ![200000, 4, 1]⟩
abbrev S200000x4x128 : Shape := ⟨3, ![200000, 4, 128]⟩
abbrev S200000x128 : Shape := ⟨2, ![200000, 128]⟩
abbrev S400000x1 : Shape := ⟨2, ![400000, 1]⟩
abbrev S200000x261 : Shape := ⟨2, ![200000, 261]⟩
abbrev S1x128 : Shape := ⟨2, ![1, 128]⟩
abbrev S10000x128 : Shape := ⟨2, ![10000, 128]⟩
abbrev S200000x1 : Shape := ⟨2, ![200000, 1]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S200000x133, .f32⟩
  | 1 => ⟨S400000x147, .f32⟩
  | 2 => ⟨S200000x4, .i32⟩
  | 3 => ⟨S400000, .i32⟩
  | 4 => ⟨S400000, .i32⟩
  | 5 => ⟨S200000, .i32⟩
  | 6 => ⟨S147x128, .f32⟩
  | 7 => ⟨S128x128, .f32⟩
  | 8 => ⟨S261x128, .f32⟩
  | 9 => ⟨S128, .f32⟩
  | 10 => ⟨S128x256, .f32⟩
  | 11 => ⟨S256, .f32⟩
  | 12 => ⟨S256x1, .f32⟩
  | 13 => ⟨S1, .f32⟩
  | 14 => ⟨S400000x128, .f32⟩
  | 15 => ⟨S_, .f32⟩
  | 16 => ⟨S400000x128, .f32⟩
  | 17 => ⟨S400000x128, .f32⟩
  | 18 => ⟨S_, .i32⟩
  | 19 => ⟨S200000x4, .i32⟩
  | 20 => ⟨S200000x4, .i1⟩
  | 21 => ⟨S_, .i32⟩
  | 22 => ⟨S200000x4, .i32⟩
  | 23 => ⟨S200000x4, .i32⟩
  | 24 => ⟨S200000x4, .i32⟩
  | 25 => ⟨S200000x4x1, .i32⟩
  | 26 => ⟨S200000x4x128, .f32⟩
  | 27 => ⟨S_, .f32⟩
  | 28 => ⟨S200000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x128, .f32⟩
  | 48 => ⟨S400000x128, .f32⟩
  | 49 => ⟨S400000x128, .f32⟩
  | 50 => ⟨S_, .f32⟩
  | 51 => ⟨S400000x128, .f32⟩
  | 52 => ⟨S400000x128, .f32⟩
  | 53 => ⟨S_, .i32⟩
  | 54 => ⟨S200000x4, .i32⟩
  | 55 => ⟨S200000x4, .i1⟩
  | 56 => ⟨S_, .i32⟩
  | 57 => ⟨S200000x4, .i32⟩
  | 58 => ⟨S200000x4, .i32⟩
  | 59 => ⟨S200000x4, .i32⟩
  | 60 => ⟨S200000x4x1, .i32⟩
  | 61 => ⟨S200000x4x128, .f32⟩
  | 62 => ⟨S_, .f32⟩
  | 63 => ⟨S200000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S400000x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S_, .i32⟩
  | 89 => ⟨S200000x4, .i32⟩
  | 90 => ⟨S200000x4, .i1⟩
  | 91 => ⟨S_, .i32⟩
  | 92 => ⟨S200000x4, .i32⟩
  | 93 => ⟨S200000x4, .i32⟩
  | 94 => ⟨S200000x4, .i32⟩
  | 95 => ⟨S200000x4x1, .i32⟩
  | 96 => ⟨S200000x4x128, .f32⟩
  | 97 => ⟨S_, .f32⟩
  | 98 => ⟨S200000x128, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S400000x128, .f32⟩
  | 118 => ⟨S400000x128, .f32⟩
  | 119 => ⟨S400000x128, .f32⟩
  | 120 => ⟨S_, .f32⟩
  | 121 => ⟨S400000x128, .f32⟩
  | 122 => ⟨S400000x128, .f32⟩
  | 123 => ⟨S_, .i32⟩
  | 124 => ⟨S200000x4, .i32⟩
  | 125 => ⟨S200000x4, .i1⟩
  | 126 => ⟨S_, .i32⟩
  | 127 => ⟨S200000x4, .i32⟩
  | _ => ⟨S200000x133, .f32⟩

abbrev hbmTy0_1 (i : Nat) : BufTy := match i % 128 with
  | 0 => ⟨S200000x4, .i32⟩
  | 1 => ⟨S200000x4, .i32⟩
  | 2 => ⟨S200000x4x1, .i32⟩
  | 3 => ⟨S200000x4x128, .f32⟩
  | 4 => ⟨S_, .f32⟩
  | 5 => ⟨S200000x128, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S400000x128, .f32⟩
  | 25 => ⟨S400000x128, .f32⟩
  | 26 => ⟨S400000x128, .f32⟩
  | 27 => ⟨S_, .f32⟩
  | 28 => ⟨S400000x128, .f32⟩
  | 29 => ⟨S400000x128, .f32⟩
  | 30 => ⟨S_, .i32⟩
  | 31 => ⟨S200000x4, .i32⟩
  | 32 => ⟨S200000x4, .i1⟩
  | 33 => ⟨S_, .i32⟩
  | 34 => ⟨S200000x4, .i32⟩
  | 35 => ⟨S200000x4, .i32⟩
  | 36 => ⟨S200000x4, .i32⟩
  | 37 => ⟨S200000x4x1, .i32⟩
  | 38 => ⟨S200000x4x128, .f32⟩
  | 39 => ⟨S_, .f32⟩
  | 40 => ⟨S200000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x128, .f32⟩
  | 59 => ⟨S400000x128, .f32⟩
  | 60 => ⟨S400000x128, .f32⟩
  | 61 => ⟨S400000x128, .f32⟩
  | 62 => ⟨S_, .f32⟩
  | 63 => ⟨S400000x128, .f32⟩
  | 64 => ⟨S400000x128, .f32⟩
  | 65 => ⟨S_, .i32⟩
  | 66 => ⟨S200000x4, .i32⟩
  | 67 => ⟨S200000x4, .i1⟩
  | 68 => ⟨S_, .i32⟩
  | 69 => ⟨S200000x4, .i32⟩
  | 70 => ⟨S200000x4, .i32⟩
  | 71 => ⟨S200000x4, .i32⟩
  | 72 => ⟨S200000x4x1, .i32⟩
  | 73 => ⟨S200000x4x128, .f32⟩
  | 74 => ⟨S_, .f32⟩
  | 75 => ⟨S200000x128, .f32⟩
  | 76 => ⟨S200000x261, .f32⟩
  | 77 => ⟨S200000x128, .f32⟩
  | 78 => ⟨S1x128, .f32⟩
  | 79 => ⟨S200000x128, .f32⟩
  | 80 => ⟨S200000x128, .f32⟩
  | 81 => ⟨S_, .f32⟩
  | 82 => ⟨S200000x128, .f32⟩
  | 83 => ⟨S200000x128, .f32⟩
  | 84 => ⟨S_, .f32⟩
  | 85 => ⟨S10000x128, .f32⟩
  | 86 => ⟨S200000x1, .i32⟩
  | 87 => ⟨S10000x128, .f32⟩
  | 88 => ⟨S_, .f32⟩
  | 89 => ⟨S200000, .f32⟩
  | 90 => ⟨S_, .f32⟩
  | 91 => ⟨S10000, .f32⟩
  | 92 => ⟨S200000x1, .i32⟩
  | 93 => ⟨S10000, .f32⟩
  | 94 => ⟨S10000x1, .f32⟩
  | 95 => ⟨S_, .f32⟩
  | 96 => ⟨S10000x1, .f32⟩
  | 97 => ⟨S10000x1, .i1⟩
  | 98 => ⟨S_, .f32⟩
  | 99 => ⟨S10000, .f32⟩
  | 100 => ⟨S10000, .f32⟩
  | 101 => ⟨S10000x1, .f32⟩
  | 102 => ⟨S10000x128, .f32⟩
  | 103 => ⟨S10000x128, .f32⟩
  | 104 => ⟨S_, .f32⟩
  | 105 => ⟨S_, .f32⟩
  | 106 => ⟨S10000x128, .i1⟩
  | 107 => ⟨S10000x128, .f32⟩
  | 108 => ⟨S10000x128, .f32⟩
  | 109 => ⟨S10000x256, .f32⟩
  | 110 => ⟨S1x256, .f32⟩
  | 111 => ⟨S10000x256, .f32⟩
  | 112 => ⟨S10000x256, .f32⟩
  | 113 => ⟨S_, .f32⟩
  | 114 => ⟨S10000x256, .f32⟩
  | 115 => ⟨S10000x256, .f32⟩
  | 116 => ⟨S10000x1, .f32⟩
  | 117 => ⟨S1x1, .f32⟩
  | 118 => ⟨S10000x1, .f32⟩
  | 119 => ⟨S10000x1, .f32⟩
  | _ => ⟨S200000x133, .f32⟩

abbrev hbmTy (i : Nat) : BufTy := match i / 128 with
  | 0 => hbmTy0_0 i
  | 1 => hbmTy0_1 i
  | _ => ⟨S200000x133, .f32⟩

abbrev bufTy : (tb : Table) → Fin (tcTables nBuf tb) → BufTy
  | .hbm, ⟨i, _⟩ => hbmTy i
  | _, _ => ⟨S200000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_cst : Ref sig .tc := ⟨.hbm, 15, rfl⟩
abbrev main_call0_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_cst : Ref sig .tc := ⟨.hbm, 50, rfl⟩
abbrev main_call1_v0 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call2_cst : Ref sig .tc := ⟨.hbm, 85, rfl⟩
abbrev main_call2_v0 : Ref sig .tc := ⟨.hbm, 86, rfl⟩
abbrev main_v53 : Ref sig .tc := ⟨.hbm, 87, rfl⟩
abbrev main_c_12 : Ref sig .tc := ⟨.hbm, 88, rfl⟩
abbrev main_v54 : Ref sig .tc := ⟨.hbm, 89, rfl⟩
abbrev main_v55 : Ref sig .tc := ⟨.hbm, 90, rfl⟩
abbrev main_c_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_c_15 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_17 : Ref sig .tc := ⟨.hbm, 108, rfl⟩
abbrev main_v69 : Ref sig .tc := ⟨.hbm, 109, rfl⟩
abbrev main_v70 : Ref sig .tc := ⟨.hbm, 110, rfl⟩
abbrev main_c_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call3_cst : Ref sig .tc := ⟨.hbm, 120, rfl⟩
abbrev main_call3_v0 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_21 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_c_23 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_24 : Ref sig .tc := ⟨.hbm, 143, rfl⟩
abbrev main_v95 : Ref sig .tc := ⟨.hbm, 144, rfl⟩
abbrev main_v96 : Ref sig .tc := ⟨.hbm, 145, rfl⟩
abbrev main_c_25 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call4_cst : Ref sig .tc := ⟨.hbm, 155, rfl⟩
abbrev main_call4_v0 : Ref sig .tc := ⟨.hbm, 156, rfl⟩
abbrev main_v105 : Ref sig .tc := ⟨.hbm, 157, rfl⟩
abbrev main_c_26 : Ref sig .tc := ⟨.hbm, 158, rfl⟩
abbrev main_v106 : Ref sig .tc := ⟨.hbm, 159, rfl⟩
abbrev main_v107 : Ref sig .tc := ⟨.hbm, 160, rfl⟩
abbrev main_c_27 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_28 : Ref sig .tc := ⟨.hbm, 167, rfl⟩
abbrev main_v113 : Ref sig .tc := ⟨.hbm, 168, rfl⟩
abbrev main_c_29 : Ref sig .tc := ⟨.hbm, 169, rfl⟩
abbrev main_v114 : Ref sig .tc := ⟨.hbm, 170, rfl⟩
abbrev main_v115 : Ref sig .tc := ⟨.hbm, 171, rfl⟩
abbrev main_c_30 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_31 : Ref sig .tc := ⟨.hbm, 178, rfl⟩
abbrev main_v121 : Ref sig .tc := ⟨.hbm, 179, rfl⟩
abbrev main_v122 : Ref sig .tc := ⟨.hbm, 180, rfl⟩
abbrev main_c_32 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_call5_cst : Ref sig .tc := ⟨.hbm, 190, rfl⟩
abbrev main_call5_v0 : Ref sig .tc := ⟨.hbm, 191, rfl⟩
abbrev main_v131 : Ref sig .tc := ⟨.hbm, 192, rfl⟩
abbrev main_c_33 : Ref sig .tc := ⟨.hbm, 193, rfl⟩
abbrev main_v132 : Ref sig .tc := ⟨.hbm, 194, rfl⟩
abbrev main_v133 : Ref sig .tc := ⟨.hbm, 195, rfl⟩
abbrev main_c_34 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_35 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_call6_cst : Ref sig .tc := ⟨.hbm, 209, rfl⟩
abbrev main_call6_v0 : Ref sig .tc := ⟨.hbm, 210, rfl⟩
abbrev main_v145 : Ref sig .tc := ⟨.hbm, 211, rfl⟩
abbrev main_cst_36 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_37 : Ref sig .tc := ⟨.hbm, 216, rfl⟩
abbrev main_v149 : Ref sig .tc := ⟨.hbm, 217, rfl⟩
abbrev main_cst_38 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_39 : Ref sig .tc := ⟨.hbm, 223, rfl⟩
abbrev main_v154 : Ref sig .tc := ⟨.hbm, 224, rfl⟩
abbrev main_v155 : Ref sig .tc := ⟨.hbm, 225, rfl⟩
abbrev main_cst_40 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_cst_41 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_call8_cst : Ref sig .tc := ⟨.hbm, 241, rfl⟩
abbrev main_call8_v0 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩

abbrev nD : Nat := 1
abbrev τ : Topo := Topo.v7x

variable {F : FTy → Type} [FloatOps F]

class Facts₀ : Prop where
  bcast_S_S400000x128 : S_.BroadcastsInDim S400000x128 (![] : Fin 0 → Fin S400000x128.rank)
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  reducesTo_S200000x4x128_S200000x128_d1 : S200000x4x128.ReducesTo [1] S200000x128
  h_S_ : 0 < S_.numel
  bcast_S_S400000 : S_.BroadcastsInDim S400000 (![] : Fin 0 → Fin S400000.rank)
  bcast_S400000_S400000x1_0 : S400000.BroadcastsInDim S400000x1 (![0] : Fin 1 → Fin S400000x1.rank)
  concatenates_S200000x133_S200000x128_S200000x261_d1 : Shape.Concatenates [S200000x133, S200000x128] S200000x261 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S10000x128 : S_.BroadcastsInDim S10000x128 (![] : Fin 0 → Fin S10000x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S400000x147_S147x128_S400000x128_1_0_0_1_n_n_wf : DotDims.WF S400000x147 S147x128 S400000x128 [1] [0] [0] [1] [] []
  gather_S400000x128_S200000x4x1_S200000x4x128_2_0_n_n_0_2_1128_wf : GatherDims.WF S400000x128 S200000x4x1 S200000x4x128 [2] [0] [] [0] [] 2 ![1, 128]
  gather_S400000x128_S400000x1_S400000x128_1_0_n_n_0_1_1128_wf : GatherDims.WF S400000x128 S400000x1 S400000x128 [1] [0] [] [0] [] 1 ![1, 128]
  gather_S200000x128_S400000x1_S400000x128_1_0_n_n_0_1_1128_wf : GatherDims.WF S200000x128 S400000x1 S400000x128 [1] [0] [] [0] [] 1 ![1, 128]
  dot_S400000x128_S128x128_S400000x128_1_0_0_1_n_n_wf : DotDims.WF S400000x128 S128x128 S400000x128 [1] [0] [0] [1] [] []
  dot_S200000x261_S261x128_S200000x128_1_0_0_1_n_n_wf : DotDims.WF S200000x261 S261x128 S200000x128 [1] [0] [0] [1] [] []
  scatter_S10000x128_S200000x1_S200000x128_1_0_0_1_wf : ScatterDims.WF S10000x128 S200000x1 S200000x128 [1] [0] [0] 1
  scatter_S10000_S200000x1_S200000_n_0_0_1_wf : ScatterDims.WF S10000 S200000x1 S200000 [] [0] [0] 1
  dot_S10000x128_S128x256_S10000x256_1_0_0_1_n_n_wf : DotDims.WF S10000x128 S128x256 S10000x256 [1] [0] [0] [1] [] []
  dot_S10000x256_S256x1_S10000x1_1_0_0_1_n_n_wf : DotDims.WF S10000x256 S256x1 S10000x1 [1] [0] [0] [1] [] []

variable [Facts₀]

def dot_S400000x147_S147x128_S400000x128_1_0_0_1_n_n : DotDims S400000x147 S147x128 S400000x128 where
  lhsContracting := [1]
  rhsContracting := [0]
  lhsNonContracting := [0]
  rhsNonContracting := [1]
  lhsBatch := []
  rhsBatch := []
  wf := dot_S400000x147_S147x128_S400000x128_1_0_0_1_n_n_wf
def gather_S400000x128_S200000x4x1_S200000x4x128_2_0_n_n_0_2_1128 : GatherDims S400000x128 S200000x4x1 S200000x4x128 where
  offsetDims := [2]
  collapsedSliceDims := [0]
  operandBatchingDims := []
  startIndicesBatchingDims := []
  startIndexMap := [0]
  indexVectorDim := 2
  sliceSizes := ![1, 128]
  wf := gather_S400000x128_S200000x4x1_S200000x4x128_2_0_n_n_0_2_1128_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S200000x261_S261x128_S200000x128_1_0_0_1_n_n : DotDims S200000x261 S261x128 S200000x128 where
  lhsContracting := [1]
  rhsContracting := [0]
  lhsNonContracting := [0]
  rhsNonContracting := [1]
  lhsBatch := []
  rhsBatch := []
  wf := dot_S200000x261_S261x128_S200000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibMpnStages.lean ====
/-
  The dense stages of a directed message-passing network, read entry by entry on the extended reals, generic in the
  row count so that one statement serves a whole array and a block of its rows:
  * `linRows`: a matrix product, entry `(r, q)` the sum over `j` of `X (r, j) · w (j, q)`;
  * `reluRows`: the maximum with the binary32 zero word's value;
  * `updRows`: one message update, `max (Inp (r, q) + ∑ j, D (r, j) · w (j, q)) 0`;
  * `atomRows`: the atom read-out, `max (∑ j < 133, FA (r, j) · wo (j, q) + ∑ j < 128, AM (r, j) · wo (133 + j, q) + b q) 0`:
    the product of the row `[FA | AM]` (261 entries) with `wo`, its contraction cut after the first 133 terms;
  * the prediction head is the two-layer perceptron `LibMlp.mlp2`.
  The host spells each stage with `dot_general`, broadcasts and a maximum with a broadcast zero; those spellings are
  shown equal to the stages here, array by array. The only rearrangement is `sum_261`: a sum over 261 terms is the
  sum of its first 133 and its last 128 terms, which holds in every commutative monoid, so no finiteness is used.
-/
import proofs.«152408_j47510928228864_1_alg».proof.Proof.LibMlpRows

noncomputable section

namespace Cert.Mpn

open Idealize.ShloMosaic Idealize.ShloMosaic.ValueIdx Cert.LibMlp
open scoped BigOperators

/-- The binary32 zero word's value: the floor of every ReLU here. -/
abbrev zr : EReal := Ideal.ofBits .f32 0x00000000#32

/-- A matrix product: entry `(r, q)` is the product of row `r` of `X` with column `q` of `w`. -/
def linRows {R I H : ℕ} (X : (⟨2, ![R, I]⟩ : Shape).Idx → EReal) (w : (⟨2, ![I, H]⟩ : Shape).Idx → EReal) :
    (⟨2, ![R, H]⟩ : Shape).Idx → EReal :=
  fun i => ∑ j : Fin I, X (ix2 (i 0) j) * w (ix2 j (i 1))

/-- The ReLU of every entry. -/
def reluRows {R H : ℕ} (Y : (⟨2, ![R, H]⟩ : Shape).Idx → EReal) : (⟨2, ![R, H]⟩ : Shape).Idx → EReal :=
  fun i => max (Y i) zr

/-- One message update: the input message plus the product of the neighbourhood difference with the weights, floored. -/
def updRows {R I H : ℕ} (D : (⟨2, ![R, I]⟩ : Shape).Idx → EReal) (Inp : (⟨2, ![R, H]⟩ : Shape).Idx → EReal)
    (w : (⟨2, ![I, H]⟩ : Shape).Idx → EReal) : (⟨2, ![R, H]⟩ : Shape).Idx → EReal :=
  fun i => max (Inp i + linRows D w i) zr

/-- The atom read-out: the row `[FA (r, ·) | AM (r, ·)]` times `wo`, as its first 133 and its last 128 terms, plus the
    bias, floored. -/
def atomRows {R : ℕ} (FA : (⟨2, ![R, 133]⟩ : Shape).Idx → EReal) (AM : (⟨2, ![R, 128]⟩ : Shape).Idx → EReal)
    (wo : (⟨2, ![261, 128]⟩ : Shape).Idx → EReal) (b : (⟨1, ![128]⟩ : Shape).Idx → EReal) :
    (⟨2, ![R, 128]⟩ : Shape).Idx → EReal :=
  fun i => max (((∑ j : Fin 133, FA (ix2 (i 0) j) * wo (ix2 (Fin.castAdd 128 j) (i 1)))
      + ∑ j : Fin 128, AM (ix2 (i 0) j) * wo (ix2 (Fin.natAdd 133 j) (i 1))) + b (ix1 (i 1))) zr

theorem linRows_ix2 {R I H : ℕ} (X : (⟨2, ![R, I]⟩ : Shape).Idx → EReal) (w : (⟨2, ![I, H]⟩ : Shape).Idx → EReal)
    (p : Fin R) (q : Fin H) : linRows X w (ix2 p q) = ∑ j : Fin I, X (ix2 p j) * w (ix2 j q) := rfl

theorem reluRows_ix2 {R H : ℕ} (Y : (⟨2, ![R, H]⟩ : Shape).Idx → EReal) (p : Fin R) (q : Fin H) :
    reluRows Y (ix2 p q) = max (Y (ix2 p q)) zr := rfl

theorem updRows_ix2 {R I H : ℕ} (D : (⟨2, ![R, I]⟩ : Shape).Idx → EReal) (Inp : (⟨2, ![R, H]⟩ : Shape).Idx → EReal)
    (w : (⟨2, ![I, H]⟩ : Shape).Idx → EReal) (p : Fin R) (q : Fin H) :
    updRows D Inp w (ix2 p q) = max (Inp (ix2 p q) + ∑ j : Fin I, D (ix2 p j) * w (ix2 j q)) zr := rfl

theorem atomRows_ix2 {R : ℕ} (FA : (⟨2, ![R, 133]⟩ : Shape).Idx → EReal) (AM : (⟨2, ![R, 128]⟩ : Shape).Idx → EReal)
    (wo : (⟨2, ![261, 128]⟩ : Shape).Idx → EReal) (b : (⟨1, ![128]⟩ : Shape).Idx → EReal) (p : Fin R) (q : Fin 128) :
    atomRows FA AM wo b (ix2 p q) = max (((∑ j : Fin 133, FA (ix2 p j) * wo (ix2 (Fin.castAdd 128 j) q))
      + ∑ j : Fin 128, AM (ix2 p j) * wo (ix2 (Fin.natAdd 133 j) q)) + b (ix1 q)) zr := rfl

/-! ## The vector unit's matrix product -/

/-- A `tpu.matmul` with the plain dimension numbers into a zero accumulator, at an entry. -/
theorem kern_lin_apply {R I H : ℕ} (d : DotDims ⟨2, ![R, I]⟩ ⟨2, ![I, H]⟩ ⟨2, ![R, H]⟩) (hd : d = DotDims.plain R I H)
    {φ₁ φ₂ : FTy} (x : FVec Ideal ⟨2, ![R, I]⟩ φ₁) (w : FVec Ideal ⟨2, ![I, H]⟩ φ₂) (p : Fin R) (q : Fin H) :
    matmul d none x w (constant ⟨2, ![R, H]⟩ .f32 0x00000000#32) (ix2 p q) = ∑ j : Fin I, x (ix2 p j) * w (ix2 j q) := by
  subst hd
  exact matmul_zero_plain R I H none x w p q

/-! ## The host's spellings -/

/-- A broadcast of the scalar zero constant reads the zero word's value everywhere. -/
theorem zero_bcast_apply {R H : ℕ} (hz : (⟨0, ![]⟩ : Shape).BroadcastsInDim ⟨2, ![R, H]⟩ ![]) (i : (⟨2, ![R, H]⟩ : Shape).Idx) :
    broadcastInDim ⟨2, ![R, H]⟩ ![] hz (constant (F := Ideal) ⟨0, ![]⟩ .f32 0x00000000#32) i = zr :=
  broadcastInDim_apply ![] hz _ i ix0 (fun a => a.elim0)

/-- The host's `dot_general` with the plain dimension numbers is `linRows`. -/
theorem host_lin {R I H : ℕ} (d : DotDims ⟨2, ![R, I]⟩ ⟨2, ![I, H]⟩ ⟨2, ![R, H]⟩) (hd : d = DotDims.plain R I H)
    (X : FVec Ideal ⟨2, ![R, I]⟩ .f32) (w : FVec Ideal ⟨2, ![I, H]⟩ .f32) :
    Host.dotGeneral d none X w = linRows X w := by
  subst hd
  funext i
  obtain ⟨p, q, rfl⟩ : ∃ (p : Fin R) (q : Fin H), i = ix2 p q := ⟨i 0, i 1, eq_ix2 i⟩
  rw [linRows_ix2]
  exact dotGeneral_plain R I H none _ X w p q

/-- The host's ReLU, a maximum with a broadcast zero, is `reluRows`. -/
theorem host_relu {R H : ℕ} (hz : (⟨0, ![]⟩ : Shape).BroadcastsInDim ⟨2, ![R, H]⟩ ![]) (Y : FVec Ideal ⟨2, ![R, H]⟩ .f32) :
    maximumf Y (broadcastInDim ⟨2, ![R, H]⟩ ![] hz (constant (F := Ideal) ⟨0, ![]⟩ .f32 0x00000000#32)) = reluRows Y := by
  funext i
  rw [maximumf_apply, zero_bcast_apply]
  rfl

/-- The host's message update. -/
theorem host_upd {R I H : ℕ} (d : DotDims ⟨2, ![R, I]⟩ ⟨2, ![I, H]⟩ ⟨2, ![R, H]⟩) (hd : d = DotDims.plain R I H)
    (hz : (⟨0, ![]⟩ : Shape).BroadcastsInDim ⟨2, ![R, H]⟩ ![])
    (D : FVec Ideal ⟨2, ![R, I]⟩ .f32) (Inp : FVec Ideal ⟨2, ![R, H]⟩ .f32) (w : FVec Ideal ⟨2, ![I, H]⟩ .f32) :
    maximumf (addf Inp (Host.dotGeneral d none D w))
      (broadcastInDim ⟨2, ![R, H]⟩ ![] hz (constant (F := Ideal) ⟨0, ![]⟩ .f32 0x00000000#32)) = updRows D Inp w := by
  rw [host_lin d hd, host_relu]
  rfl

/-- A bias broadcast to one row and then down the rows reads the bias at the column. -/
theorem bias_bcast_apply {R H : ℕ} (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (r : Fin R) (k : Fin H) :
    broadcastInDim ⟨2, ![R, H]⟩ ![0, 1] hB (broadcastInDim ⟨2, ![1, H]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A sum over 261 terms is the sum of its first 133 and its last 128 terms. -/
theorem sum_261 (f : Fin 261 → EReal) :
    ∑ k : Fin 261, f k = (∑ j : Fin 133, f (Fin.castAdd 128 j)) + ∑ j : Fin 128, f (Fin.natAdd 133 j) :=
  Fin.sum_univ_add (a := 133) (b := 128) (f : Fin (133 + 128) → EReal)

/-- The two operands joined along the columns, read at a column of the first. -/
theorem concat_left {R : ℕ} (FA : (⟨2, ![R, 133]⟩ : Shape).Idx → EReal) (AM : (⟨2, ![R, 128]⟩ : Shape).Idx → EReal)
    (h : Shape.Concatenates [(⟨2, ![R, 133]⟩ : Shape), ⟨2, ![R, 128]⟩] ⟨2, ![R, 261]⟩ 1) (p : Fin R) (j : Fin 133) :
    concatenate ⟨2, ![R, 261]⟩ 1 [⟨⟨2, ![R, 133]⟩, FA⟩, ⟨⟨2, ![R, 128]⟩, AM⟩] h (ix2 p (Fin.castAdd 128 j)) = FA (ix2 p j) :=
  concatenate_apply_piece 1 [⟨⟨2, ![R, 133]⟩, FA⟩, ⟨⟨2, ![R, 128]⟩, AM⟩] h (ix2 p (Fin.castAdd 128 j)) 0 (Nat.zero_lt_two) ⟨2, ![R, 133]⟩ FA rfl rfl 0 rfl (ix2 p j)
    (fun b hb => by
      match b with
      | ⟨0, _⟩ => rfl
      | ⟨1, _⟩ => exact absurd rfl hb)
    (by show 0 + j.val = j.val; omega)

/-- The two operands joined along the columns, read at a column of the second. -/
theorem concat_right {R : ℕ} (FA : (⟨2, ![R, 133]⟩ : Shape).Idx → EReal) (AM : (⟨2, ![R, 128]⟩ : Shape).Idx → EReal)
    (h : Shape.Concatenates [(⟨2, ![R, 133]⟩ : Shape), ⟨2, ![R, 128]⟩] ⟨2, ![R, 261]⟩ 1) (p : Fin R) (j : Fin 128) :
    concatenate ⟨2, ![R, 261]⟩ 1 [⟨⟨2, ![R, 133]⟩, FA⟩, ⟨⟨2, ![R, 128]⟩, AM⟩] h (ix2 p (Fin.natAdd 133 j)) = AM (ix2 p j) :=
  concatenate_apply_piece 1 [⟨⟨2, ![R, 133]⟩, FA⟩, ⟨⟨2, ![R, 128]⟩, AM⟩] h (ix2 p (Fin.natAdd 133 j)) 1 (Nat.one_lt_two) ⟨2, ![R, 128]⟩ AM rfl rfl 133 rfl (ix2 p j)
    (fun b hb => by
      match b with
      | ⟨0, _⟩ => rfl
      | ⟨1, _⟩ => exact absurd rfl hb)
    (by rfl)

/-- The host's atom read-out: the joined row times `wo` is the two partial products' sum. -/
theorem host_atom {R : ℕ} (d : DotDims ⟨2, ![R, 261]⟩ ⟨2, ![261, 128]⟩ ⟨2, ![R, 128]⟩) (hd : d = DotDims.plain R 261 128)
    (h : Shape.Concatenates [(⟨2, ![R, 133]⟩ : Shape), ⟨2, ![R, 128]⟩] ⟨2, ![R, 261]⟩ 1)
    (hb : (⟨1, ![128]⟩ : Shape).BroadcastsInDim ⟨2, ![1, 128]⟩ ![1]) (hB : (⟨2, ![1, 128]⟩ : Shape).BroadcastsInDim ⟨2, ![R, 128]⟩ ![0, 1])
    (hz : (⟨0, ![]⟩ : Shape).BroadcastsInDim ⟨2, ![R, 128]⟩ ![])
    (FA : FVec Ideal ⟨2, ![R, 133]⟩ .f32) (AM : FVec Ideal ⟨2, ![R, 128]⟩ .f32)
    (wo : FVec Ideal ⟨2, ![261, 128]⟩ .f32) (b : FVec Ideal ⟨1, ![128]⟩ .f32) :
    maximumf (addf (Host.dotGeneral d none (concatenate ⟨2, ![R, 261]⟩ 1 [⟨⟨2, ![R, 133]⟩, FA⟩, ⟨⟨2, ![R, 128]⟩, AM⟩] h) wo)
        (broadcastInDim ⟨2, ![R, 128]⟩ ![0, 1] hB (broadcastInDim ⟨2, ![1, 128]⟩ ![1] hb b)))
      (broadcastInDim ⟨2, ![R, 128]⟩ ![] hz (constant (F := Ideal) ⟨0, ![]⟩ .f32 0x00000000#32)) = atomRows FA AM wo b := by
  rw [host_lin d hd, host_relu]
  funext i
  obtain ⟨p, q, rfl⟩ : ∃ (p : Fin R) (q : Fin 128), i = ix2 p q := ⟨i 0, i 1, eq_ix2 i⟩
  rw [reluRows_ix2, atomRows_ix2, addf_apply, bias_bcast_apply, linRows_ix2, sum_261]
  simp only [concat_left, concat_right]

/-! ## The forms over separately laid-out operands

The kernel is handed the read-out weights as two arrays (the first 133 rows and the last 128 rows of `wo`) and each
bias as a one-row matrix. The stages over those operands are the stages above. -/

/-- The atom read-out over the two halves of the weights and the bias as a row. -/
def atomSplit {R : ℕ} (FA : (⟨2, ![R, 133]⟩ : Shape).Idx → EReal) (AM : (⟨2, ![R, 128]⟩ : Shape).Idx → EReal)
    (woa : (⟨2, ![133, 128]⟩ : Shape).Idx → EReal) (wom : (⟨2, ![128, 128]⟩ : Shape).Idx → EReal)
    (brow : (⟨2, ![1, 128]⟩ : Shape).Idx → EReal) : (⟨2, ![R, 128]⟩ : Shape).Idx → EReal :=
  fun i => max (((∑ j : Fin 133, FA (ix2 (i 0) j) * woa (ix2 j (i 1)))
      + ∑ j : Fin 128, AM (ix2 (i 0) j) * wom (ix2 j (i 1))) + brow (ix2 (0 : Fin 1) (i 1))) zr

theorem atomSplit_ix2 {R : ℕ} (FA : (⟨2, ![R, 133]⟩ : Shape).Idx → EReal) (AM : (⟨2, ![R, 128]⟩ : Shape).Idx → EReal)
    (woa : (⟨2, ![133, 128]⟩ : Shape).Idx → EReal) (wom : (⟨2, ![128, 128]⟩ : Shape).Idx → EReal)
    (brow : (⟨2, ![1, 128]⟩ : Shape).Idx → EReal) (p : Fin R) (q : Fin 128) :
    atomSplit FA AM woa wom brow (ix2 p q) = max (((∑ j : Fin 133, FA (ix2 p j) * woa (ix2 j q))
      + ∑ j : Fin 128, AM (ix2 p j) * wom (ix2 j q)) + brow (ix2 (0 : Fin 1) q)) zr := rfl

/-- Over the two row ranges of `wo` and the bias laid out as a row, `atomSplit` is `atomRows`. -/
theorem atomSplit_slices {R : ℕ} (FA : (⟨2, ![R, 133]⟩ : Shape).Idx → EReal) (AM : (⟨2, ![R, 128]⟩ : Shape).Idx → EReal)
    (wo : (⟨2, ![261, 128]⟩ : Shape).Idx → EReal) (b : (⟨1, ![128]⟩ : Shape).Idx → EReal)
    (h1 : (⟨2, ![261, 128]⟩ : Shape).Slices ![0, 0] ⟨2, ![133, 128]⟩)
    (h2 : (⟨2, ![261, 128]⟩ : Shape).Slices ![133, 0] ⟨2, ![128, 128]⟩)
    (h3 : (⟨1, ![128]⟩ : Shape).ShapeCasts ⟨2, ![1, 128]⟩) :
    atomSplit FA AM (extractStridedSlice ⟨2, ![133, 128]⟩ ![0, 0] wo h1) (extractStridedSlice ⟨2, ![128, 128]⟩ ![133, 0] wo h2)
      (shapeCast ⟨2, ![1, 128]⟩ b h3) = atomRows FA AM wo b := by
  funext i
  obtain ⟨p, q, rfl⟩ : ∃ (p : Fin R) (q : Fin 128), i = ix2 p q := ⟨i 0, i 1, eq_ix2 i⟩
  rw [atomSplit_ix2, atomRows_ix2, shapeCast_a_1a_apply]
  refine congrArg (fun s => max (s + b (ix1 q)) zr) ?_
  refine congrArg₂ (· + ·) (Finset.sum_congr rfl fun j _ => ?_) (Finset.sum_congr rfl fun j _ => ?_)
  · rw [slice2_axis0_apply 0 wo h1 j q (Fin.castAdd 128 j) (by show j.val = 0 + j.val; omega)]
  · rw [slice2_axis0_apply 133 wo h2 j q (Fin.natAdd 133 j) rfl]

/-- The two-layer perceptron over biases laid out as rows. -/
def mlpSplit {R I H O : ℕ} (X : (⟨2, ![R, I]⟩ : Shape).Idx → EReal) (w1 : (⟨2, ![I, H]⟩ : Shape).Idx → EReal)
    (b1row : (⟨2, ![1, H]⟩ : Shape).Idx → EReal) (w2 : (⟨2, ![H, O]⟩ : Shape).Idx → EReal)
    (b2row : (⟨2, ![1, O]⟩ : Shape).Idx → EReal) : (⟨2, ![R, O]⟩ : Shape).Idx → EReal :=
  fun i => (∑ k : Fin H, max ((∑ j : Fin I, X (ix2 (i 0) j) * w1 (ix2 j k)) + b1row (ix2 (0 : Fin 1) k)) zr * w2 (ix2 k (i 1)))
    + b2row (ix2 (0 : Fin 1) (i 1))

theorem mlpSplit_ix2 {R I H O : ℕ} (X : (⟨2, ![R, I]⟩ : Shape).Idx → EReal) (w1 : (⟨2, ![I, H]⟩ : Shape).Idx → EReal)
    (b1row : (⟨2, ![1, H]⟩ : Shape).Idx → EReal) (w2 : (⟨2, ![H, O]⟩ : Shape).Idx → EReal)
    (b2row : (⟨2, ![1, O]⟩ : Shape).Idx → EReal) (p : Fin R) (q : Fin O) :
    mlpSplit X w1 b1row w2 b2row (ix2 p q)
      = (∑ k : Fin H, max ((∑ j : Fin I, X (ix2 p j) * w1 (ix2 j k)) + b1row (ix2 (0 : Fin 1) k)) zr * w2 (ix2 k q))
        + b2row (ix2 (0 : Fin 1) q) := rfl

/-- Over biases laid out as rows, `mlpSplit` is the perceptron `mlp2`. -/
theorem mlpSplit_rows {R I H O : ℕ} (X : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal)
    (h1 : (⟨1, ![H]⟩ : Shape).ShapeCasts ⟨2, ![1, H]⟩) (h2 : (⟨1, ![O]⟩ : Shape).ShapeCasts ⟨2, ![1, O]⟩) :
    mlpSplit X w1 (shapeCast ⟨2, ![1, H]⟩ b1 h1) w2 (shapeCast ⟨2, ![1, O]⟩ b2 h2) = mlp2 X w1 b1 w2 b2 := by
  funext i
  obtain ⟨p, q, rfl⟩ : ∃ (p : Fin R) (q : Fin O), i = ix2 p q := ⟨i 0, i 1, eq_ix2 i⟩
  rw [mlpSplit_ix2, mlp2_ix2]
  simp only [shapeCast_a_1a_apply]
  rfl

/-- The host's perceptron is `mlp2`. -/
theorem host_mlp {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1]) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) = mlp2 x w1 b1 w2 b2 := by
  funext i
  obtain ⟨p, q, rfl⟩ : ∃ (p : Fin R) (q : Fin O), i = ix2 p q := ⟨i 0, i 1, eq_ix2 i⟩
  rw [mlp2_ix2]
  exact host_mlp_apply d1 hd1 d2 hd2 x w1 b1 w2 b2 hb1 hB1 hz hb2 hB2 p q

/-! ## The vector unit's spellings, at an entry

Operands rounded to bfloat16 (the identity on the extended reals), matrix products into a zero accumulator, a bias laid
out as one row and repeated down the rows, the ReLU as a maximum with a zero splat. -/

/-- The message update's body at an entry. -/
theorem kern_upd_apply {R I H : ℕ} (d : DotDims ⟨2, ![R, I]⟩ ⟨2, ![I, H]⟩ ⟨2, ![R, H]⟩) (hd : d = DotDims.plain R I H)
    (dx : FVec Ideal ⟨2, ![R, I]⟩ .f32) (w : FVec Ideal ⟨2, ![I, H]⟩ .f32) (inp : FVec Ideal ⟨2, ![R, H]⟩ .f32)
    (h1 : (⟨2, ![R, I]⟩ : Shape).ShapeCasts ⟨2, ![R, I]⟩) (h2 : (⟨2, ![R, H]⟩ : Shape).ShapeCasts ⟨2, ![R, H]⟩)
    (ht : FTy.bf16.bits < FTy.f32.bits) (p : Fin R) (q : Fin H) :
    maximumf (addf (shapeCast ⟨2, ![R, H]⟩ inp h2)
        (matmul d none (truncf .bf16 (shapeCast ⟨2, ![R, I]⟩ dx h1) ht) (truncf .bf16 w ht) (constant ⟨2, ![R, H]⟩ .f32 0x00000000#32)))
      (broadcast ⟨2, ![R, H]⟩ (Scalar.ofBits .f32 0x00000000#32)) (ix2 p q)
    = max (inp (ix2 p q) + ∑ j : Fin I, dx (ix2 p j) * w (ix2 j q)) zr := by
  subst hd
  simp only [matmul, addf_apply, maximumf_apply, truncf_apply, matmul_zero_plain, shapeCast_self, broadcast_apply]
  rfl

/-- The atom read-out's body at an entry. -/
theorem kern_atom_apply {R : ℕ}
    (d1 : DotDims ⟨2, ![R, 133]⟩ ⟨2, ![133, 128]⟩ ⟨2, ![R, 128]⟩) (hd1 : d1 = DotDims.plain R 133 128)
    (d2 : DotDims ⟨2, ![R, 128]⟩ ⟨2, ![128, 128]⟩ ⟨2, ![R, 128]⟩) (hd2 : d2 = DotDims.plain R 128 128)
    (fa : FVec Ideal ⟨2, ![R, 133]⟩ .f32) (am : FVec Ideal ⟨2, ![R, 128]⟩ .f32)
    (woa : FVec Ideal ⟨2, ![133, 128]⟩ .f32) (wom : FVec Ideal ⟨2, ![128, 128]⟩ .f32) (brow : FVec Ideal ⟨2, ![1, 128]⟩ .f32)
    (ham : (⟨2, ![R, 128]⟩ : Shape).ShapeCasts ⟨2, ![R, 128]⟩) (hwa : (⟨2, ![133, 128]⟩ : Shape).ShapeCasts ⟨2, ![133, 128]⟩)
    (hwm : (⟨2, ![128, 128]⟩ : Shape).ShapeCasts ⟨2, ![128, 128]⟩) (hb : (⟨2, ![1, 128]⟩ : Shape).ShapeCasts ⟨2, ![1, 128]⟩)
    (hB : (⟨2, ![1, 128]⟩ : Shape).Broadcasts ⟨2, ![R, 128]⟩)
    (ht : FTy.bf16.bits < FTy.f32.bits) (p : Fin R) (q : Fin 128) :
    maximumf (addf (addf
          (matmul d1 none (truncf .bf16 fa ht) (truncf .bf16 (shapeCast ⟨2, ![133, 128]⟩ woa hwa) ht) (constant ⟨2, ![R, 128]⟩ .f32 0x00000000#32))
          (matmul d2 none (truncf .bf16 (shapeCast ⟨2, ![R, 128]⟩ am ham) ht) (truncf .bf16 (shapeCast ⟨2, ![128, 128]⟩ wom hwm) ht)
            (constant ⟨2, ![R, 128]⟩ .f32 0x00000000#32)))
        (broadcastTo ⟨2, ![R, 128]⟩ (shapeCast ⟨2, ![1, 128]⟩ brow hb) hB))
      (broadcast ⟨2, ![R, 128]⟩ (Scalar.ofBits .f32 0x00000000#32)) (ix2 p q)
    = atomSplit fa am woa wom brow (ix2 p q) := by
  subst hd1 hd2
  simp only [atomSplit_ix2, matmul, addf_apply, maximumf_apply, truncf_apply, matmul_zero_plain, broadcastTo_1b_ab_apply,
    shapeCast_self, broadcast_apply]
  rfl

/-- The prediction head's body at an entry. -/
theorem kern_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1row : FVec Ideal ⟨2, ![1, H]⟩ .f32)
    (w2 : FVec Ideal ⟨2, ![H, O]⟩ .f32) (b2row : FVec Ideal ⟨2, ![1, O]⟩ .f32)
    (hx : (⟨2, ![R, I]⟩ : Shape).ShapeCasts ⟨2, ![R, I]⟩)
    (hb1 : (⟨2, ![1, H]⟩ : Shape).ShapeCasts ⟨2, ![1, H]⟩) (hB1 : (⟨2, ![1, H]⟩ : Shape).Broadcasts ⟨2, ![R, H]⟩)
    (hb2 : (⟨2, ![1, O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1row hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2row hb2) hB2) (ix2 p q)
    = mlpSplit x w1 b1row w2 b2row (ix2 p q) := by
  subst hd1 hd2
  simp only [mlpSplit_ix2, matmul, addf_apply, maximumf_apply, truncf_apply, matmul_zero_plain, broadcastTo_1b_ab_apply,
    shapeCast_self, broadcast_apply]
  rfl

end Cert.Mpn

end
-- ==== Proof.RefStages.lean ====
/-
  The reference program, stage by stage: each of its dense stages (as the staged reading of its run names them) is the
  corresponding stage of `LibMpnStages.lean` of the stage before it. The host operations between the dense stages (the
  neighbour gathers and sums, the molecule pooling) are left as the program prints them: the kernel runs the same ones.
-/
import proofs.«152408_j47510928228864_1_alg».proof.Proof.RefRead
import proofs.«152408_j47510928228864_1_alg».proof.Proof.LibMpnStages

set_option maxRecDepth 16384

noncomputable section

namespace Cert.ReferenceIdeal.Stg

open Cert.ReferenceIdeal Cert.ReferenceIdeal.Gen Cert.ReferenceIdeal.ReadP
open Idealize.ShloMosaic Idealize.ShloMosaic.ValueIdx
open Cert.Mpn Cert.LibMlp

variable (x0 : (⟨S200000x133, .f32⟩ : BufTy).Contents (Elt Ideal)) (x1 : (⟨S400000x147, .f32⟩ : BufTy).Contents (Elt Ideal))
  (x2 : (⟨S200000x4, .i32⟩ : BufTy).Contents (Elt Ideal)) (x3 x4 : (⟨S400000, .i32⟩ : BufTy).Contents (Elt Ideal))
  (x5 : (⟨S200000, .i32⟩ : BufTy).Contents (Elt Ideal)) (x6 : (⟨S147x128, .f32⟩ : BufTy).Contents (Elt Ideal))
  (x7 : (⟨S128x128, .f32⟩ : BufTy).Contents (Elt Ideal)) (x8 : (⟨S261x128, .f32⟩ : BufTy).Contents (Elt Ideal))
  (x9 : (⟨S128, .f32⟩ : BufTy).Contents (Elt Ideal)) (x10 : (⟨S128x256, .f32⟩ : BufTy).Contents (Elt Ideal))
  (x11 : (⟨S256, .f32⟩ : BufTy).Contents (Elt Ideal)) (x12 : (⟨S256x1, .f32⟩ : BufTy).Contents (Elt Ideal))
  (x13 : (⟨S1, .f32⟩ : BufTy).Contents (Elt Ideal))

/-- The input message: the bond features times the input weights. -/
theorem v0 : val_main_v0 (F := Ideal) x1 x6 = linRows x1 x6 :=
  host_lin dot_S400000x147_S147x128_S400000x128_1_0_0_1_n_n rfl x1 x6

/-- The first message: its ReLU. -/
theorem v1 : val_main_v1 (F := Ideal) x1 x6 = reluRows (val_main_v0 (F := Ideal) x1 x6) :=
  host_relu bcast_S_S400000x128 (val_main_v0 (F := Ideal) x1 x6)

/-- Each message update is `updRows` of the neighbourhood difference of the message before it. -/
theorem v27 : val_main_v27 (F := Ideal) x1 x2 x3 x4 x6 x7 = updRows (val_main_v24 (F := Ideal) x1 x2 x3 x4 x6) (val_main_v0 (F := Ideal) x1 x6) x7 :=
  host_upd dot_S400000x128_S128x128_S400000x128_1_0_0_1_n_n rfl bcast_S_S400000x128 _ _ x7
theorem v53 : val_main_v53 (F := Ideal) x1 x2 x3 x4 x6 x7 = updRows (val_main_v50 (F := Ideal) x1 x2 x3 x4 x6 x7) (val_main_v0 (F := Ideal) x1 x6) x7 :=
  host_upd dot_S400000x128_S128x128_S400000x128_1_0_0_1_n_n rfl bcast_S_S400000x128 _ _ x7
theorem v79 : val_main_v79 (F := Ideal) x1 x2 x3 x4 x6 x7 = updRows (val_main_v76 (F := Ideal) x1 x2 x3 x4 x6 x7) (val_main_v0 (F := Ideal) x1 x6) x7 :=
  host_upd dot_S400000x128_S128x128_S400000x128_1_0_0_1_n_n rfl bcast_S_S400000x128 _ _ x7
theorem v105 : val_main_v105 (F := Ideal) x1 x2 x3 x4 x6 x7 = updRows (val_main_v102 (F := Ideal) x1 x2 x3 x4 x6 x7) (val_main_v0 (F := Ideal) x1 x6) x7 :=
  host_upd dot_S400000x128_S128x128_S400000x128_1_0_0_1_n_n rfl bcast_S_S400000x128 _ _ x7
theorem v131 : val_main_v131 (F := Ideal) x1 x2 x3 x4 x6 x7 = updRows (val_main_v128 (F := Ideal) x1 x2 x3 x4 x6 x7) (val_main_v0 (F := Ideal) x1 x6) x7 :=
  host_upd dot_S400000x128_S128x128_S400000x128_1_0_0_1_n_n rfl bcast_S_S400000x128 _ _ x7

/-- The atom representations: the read-out of the atom features joined with the aggregated last message. -/
theorem v145 : val_main_v145 (F := Ideal) x0 x1 x2 x3 x4 x6 x7 x8 x9 = atomRows x0 (val_main_v139 (F := Ideal) x1 x2 x3 x4 x6 x7) x8 x9 :=
  host_atom dot_S200000x261_S261x128_S200000x128_1_0_0_1_n_n rfl concatenates_S200000x133_S200000x128_S200000x261_d1
    bcast_S128_S1x128_1 bcast_S1x128_S200000x128_0_1 bcast_S_S200000x128 x0 _ x8 x9

/-- The predictions: the two-layer perceptron of the pooled molecule vectors. -/
theorem v170 : val_main_v170 (F := Ideal) x0 x1 x2 x3 x4 x5 x6 x7 x8 x9 x10 x11 x12 x13
    = mlp2 (val_main_v161 (F := Ideal) x0 x1 x2 x3 x4 x5 x6 x7 x8 x9) x10 x11 x12 x13 :=
  host_mlp dot_S10000x128_S128x256_S10000x256_1_0_0_1_n_n rfl dot_S10000x256_S256x1_S10000x1_1_0_0_1_n_n rfl _ x10 x11 x12 x13
    bcast_S256_S1x256_1 bcast_S1x256_S10000x256_0_1 bcast_S_S10000x256 bcast_S1_S1x1_1 bcast_S1x1_S10000x1_0_1

/-! ## The host operations between the dense stages, and the network -/

/-- The neighbourhood difference of a message array: for bond `e`, the sum of the message over the bonds into its source
    atom (the atom's four listed bonds, summed, gathered at the bond's source) minus the message of the reverse bond —
    the gathers, the sum over the four neighbours and the subtraction as the programs print them. -/
def diffOf (msg : FVec Ideal S400000x128 .f32) (x2 : (⟨S200000x4, .i32⟩ : BufTy).Contents (Elt Ideal)) (x3 x4 : (⟨S400000, .i32⟩ : BufTy).Contents (Elt Ideal)) :
    FVec Ideal S400000x128 .f32 :=
  subf (F := Ideal) (Host.gather gather_S200000x128_S400000x1_S400000x128_1_0_n_n_0_1_1128
      (Host.reduceAdd (F := Ideal) (φ := .f32) (Host.gather gather_S400000x128_S200000x4x1_S200000x4x128_2_0_n_n_0_2_1128 msg (val_main_v7 (F := Ideal) x2))
        (val_main_cst (F := Ideal)) reducesTo_S200000x4x128_S200000x128_d1 h_S_) (val_main_v22 (F := Ideal) x3))
    (Host.gather gather_S400000x128_S400000x1_S400000x128_1_0_n_n_0_1_1128 msg (val_main_v15 (F := Ideal) x4))

/-- The messages aggregated at each atom: the sum of a message array over the atom's four listed bonds. -/
def aggOf (msg : FVec Ideal S400000x128 .f32) (x2 : (⟨S200000x4, .i32⟩ : BufTy).Contents (Elt Ideal)) : FVec Ideal S200000x128 .f32 :=
  Host.reduceAdd (F := Ideal) (φ := .f32) (Host.gather gather_S400000x128_S200000x4x1_S200000x4x128_2_0_n_n_0_2_1128 msg (val_main_v7 (F := Ideal) x2))
    (val_main_cst (F := Ideal)) reducesTo_S200000x4x128_S200000x128_d1 h_S_

/-- The molecule vectors: the atom representations summed per molecule and divided by the molecule's atom count
    (floored at one), zero for a molecule with no atom — as the programs print it. -/
def poolOf (ah : FVec Ideal S200000x128 .f32) (x5 : (⟨S200000, .i32⟩ : BufTy).Contents (Elt Ideal)) : FVec Ideal S10000x128 .f32 :=
  select (val_main_call7_v1 (F := Ideal) x5)
    (Host.divf (F := Ideal) (φ := .f32) (Host.scatterAdd (F := Ideal) (φ := .f32) scatter_S10000x128_S200000x1_S200000x128_1_0_0_1 (val_main_v146 (F := Ideal)) (val_main_v147 (F := Ideal) x5) ah)
      (val_main_v159 (F := Ideal) x5))
    (val_main_call7_v2 (F := Ideal))

/-- The messages: the ReLU of the input message, then five updates, each from the neighbourhood difference of the
    message before it. -/
def msgs : ℕ → FVec Ideal S400000x128 .f32
  | 0 => reluRows (linRows x1 x6)
  | k + 1 => updRows (diffOf (msgs k) x2 x3 x4) (linRows x1 x6) x7

/-- The whole network: the prediction head of the pooled read-out of the atom features and the aggregated sixth message. -/
def net : FVec Ideal S10000x1 .f32 :=
  mlp2 (poolOf (atomRows x0 (aggOf (msgs x1 x2 x3 x4 x6 x7 5) x2) x8 x9) x5) x10 x11 x12 x13

theorem m0 : val_main_v1 (F := Ideal) x1 x6 = msgs x1 x2 x3 x4 x6 x7 0 := by
  rw [v1, v0]; rfl
theorem m1 : val_main_v27 (F := Ideal) x1 x2 x3 x4 x6 x7 = msgs x1 x2 x3 x4 x6 x7 1 := by
  rw [v27, show val_main_v24 (F := Ideal) x1 x2 x3 x4 x6 = diffOf (val_main_v1 (F := Ideal) x1 x6) x2 x3 x4 from rfl, m0 x1 x2 x3 x4 x6 x7, v0]; rfl
theorem m2 : val_main_v53 (F := Ideal) x1 x2 x3 x4 x6 x7 = msgs x1 x2 x3 x4 x6 x7 2 := by
  rw [v53, show val_main_v50 (F := Ideal) x1 x2 x3 x4 x6 x7 = diffOf (val_main_v27 (F := Ideal) x1 x2 x3 x4 x6 x7) x2 x3 x4 from rfl, m1, v0]; rfl
theorem m3 : val_main_v79 (F := Ideal) x1 x2 x3 x4 x6 x7 = msgs x1 x2 x3 x4 x6 x7 3 := by
  rw [v79, show val_main_v76 (F := Ideal) x1 x2 x3 x4 x6 x7 = diffOf (val_main_v53 (F := Ideal) x1 x2 x3 x4 x6 x7) x2 x3 x4 from rfl, m2, v0]; rfl
theorem m4 : val_main_v105 (F := Ideal) x1 x2 x3 x4 x6 x7 = msgs x1 x2 x3 x4 x6 x7 4 := by
  rw [v105, show val_main_v102 (F := Ideal) x1 x2 x3 x4 x6 x7 = diffOf (val_main_v79 (F := Ideal) x1 x2 x3 x4 x6 x7) x2 x3 x4 from rfl, m3, v0]; rfl
theorem m5 : val_main_v131 (F := Ideal) x1 x2 x3 x4 x6 x7 = msgs x1 x2 x3 x4 x6 x7 5 := by
  rw [v131, show val_main_v128 (F := Ideal) x1 x2 x3 x4 x6 x7 = diffOf (val_main_v105 (F := Ideal) x1 x2 x3 x4 x6 x7) x2 x3 x4 from rfl, m4, v0]; rfl

/-- The reference's result, as the staged reading of its run names it, is the network of its arguments. -/
theorem result_eq : val_main_v170 (F := Ideal) x0 x1 x2 x3 x4 x5 x6 x7 x8 x9 x10 x11 x12 x13
    = net x0 x1 x2 x3 x4 x5 x6 x7 x8 x9 x10 x11 x12 x13 := by
  rw [v170,
    show val_main_v161 (F := Ideal) x0 x1 x2 x3 x4 x5 x6 x7 x8 x9 = poolOf (val_main_v145 (F := Ideal) x0 x1 x2 x3 x4 x6 x7 x8 x9) x5 from rfl,
    v145, show val_main_v139 (F := Ideal) x1 x2 x3 x4 x6 x7 = aggOf (val_main_v131 (F := Ideal) x1 x2 x3 x4 x6 x7) x2 from rfl, m5]
  rfl

end Cert.ReferenceIdeal.Stg

end
-- ==== Proof.KRun.lean ====
/-
  The kernel program's run with its result named. The frame of the program says that every execution terminates
  with the arguments unchanged; its proof shows more, namely that every unscoped buffer ends at the value the fold of
  the program's segments (host stretches and regions, in order) leaves in it. Read at the result buffer, that is the
  value the equivalence claim needs: the last region's write-backs over the contents at its entry.
-/
import proofs.«152408_j47510928228864_1_alg».proof.Proof.Gen.KernelIdeal.Frame

-- membership in a rectangle of production extents (`View.cover_of_tiled`): the elaborator's structural look
-- recurses once per coordinate of the long axes
set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run, with its result named: at the compiled mesh, from any memory with zero counters, every
    weakly fair execution of @main terminates, nothing faulting, and in every final state the result buffer holds what
    the fold of the segments leaves there (`W17`: the last region's write-backs over the contents at its entry) and the
    argument arrays are as launched. Every unscoped buffer ends at the fold's value; the result buffer is one of them. -/
theorem run : θ_run defs (onTc (τ := τ) (main (F := F))) ⟨m, fun _ => 0, ρ⟩ (fun r => ∀ c : Dev nD,
      r.2.mem ((c.tc : Thread nD τ).loc main_v151) = W17 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v151 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.KRun

end
-- ==== Proof.Kept.lean ====
/-
  Which buffers the kernel program leaves alone. Its fourteen argument arrays are written by no host operation and by
  no region (a region reads some of them through input windows, and an input window's array ends as it was entered);
  the input message is written once, by the first region, and by nothing after it. So at every boundary between the
  segments of the program the arguments hold their launch contents, and from the first region's exit on the input message
  holds what that region left.
-/
import proofs.«152408_j47510928228864_1_alg».proof.Proof.Gen.KernelIdeal.Frame
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

/-- The fourteen argument arrays (the first fourteen buffers of the far memory). -/
def isArg (b : Ref sig .tc) : Prop := b.space = .hbm ∧ b.idx.val < 14

/-- The arguments and the input message (the fifteenth buffer). -/
def isKept (b : Ref sig .tc) : Prop := b.space = .hbm ∧ b.idx.val < 15

instance (b : Ref sig .tc) : Decidable (isArg b) := by unfold isArg; infer_instance
instance (b : Ref sig .tc) : Decidable (isKept b) := by unfold isKept; infer_instance

theorem isKept_of_isArg {b : Ref sig .tc} (h : isArg b) : isKept b := ⟨h.1, Nat.lt_succ_of_lt h.2⟩

/-! ## No host operation writes a kept buffer -/

theorem keep_h1 (W : Valuation τ sig (Elt Ideal)) (b : Ref sig .tc) (hb : isKept b) :
    StableHlo.after hostOps1 W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h2 (W : Valuation τ sig (Elt Ideal)) (b : Ref sig .tc) (hb : isKept b) :
    StableHlo.after hostOps2 W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h3 (W : Valuation τ sig (Elt Ideal)) (b : Ref sig .tc) (hb : isKept b) :
    StableHlo.after hostOps3 W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h4 (W : Valuation τ sig (Elt Ideal)) (b : Ref sig .tc) (hb : isKept b) :
    StableHlo.after hostOps4 W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h5 (W : Valuation τ sig (Elt Ideal)) (b : Ref sig .tc) (hb : isKept b) :
    StableHlo.after hostOps5 W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h6 (W : Valuation τ sig (Elt Ideal)) (b : Ref sig .tc) (hb : isKept b) :
    StableHlo.after hostOps6 W (Proc.devRef .tc b) = W (Proc.devRef .tc b) :=
  StableHlo.after_of_forall_not_mem (b := Proc.devRef .tc b) _ _ (List.forall_iff_forall_mem.mp (by
    simp only [hostOps6, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h7 (W : Valuation τ sig (Elt Ideal)) (b : Ref sig .tc) (hb : isKept b) :
    StableHlo.after hostOps7 W (Proc.devRef .tc b) = W (Proc.devRef .tc b) :=
  StableHlo.after_of_forall_not_mem (b := Proc.devRef .tc b) _ _ (List.forall_iff_forall_mem.mp (by
    simp only [hostOps7, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h7_1 (W : Valuation τ sig (Elt Ideal)) (b : Ref sig .tc) (hb : isKept b) :
    StableHlo.after hostOps7_1 W (Proc.devRef .tc b) = W (Proc.devRef .tc b) :=
  StableHlo.after_of_forall_not_mem (b := Proc.devRef .tc b) _ _ (List.forall_iff_forall_mem.mp (by
    simp only [hostOps7_1, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

theorem keep_h7_2 (W : Valuation τ sig (Elt Ideal)) (b : Ref sig .tc) (hb : isKept b) :
    StableHlo.after hostOps7_2 W (Proc.devRef .tc b) = W (Proc.devRef .tc b) :=
  StableHlo.after_of_forall_not_mem (b := Proc.devRef .tc b) _ _ (List.forall_iff_forall_mem.mp (by
    simp only [hostOps7_2, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact absurd hb (by decide))))

/-! ## No region writes one, except the first region the input message -/

variable (m : (ℓ : Loc nD τ sig) → Buf (Elt Ideal) ℓ) (ρ : Dev nD → PrngReg)

theorem keep_r0 (c : Dev nD) (b : Ref sig .tc) (hb : isArg b) :
    W1 m ρ c (Proc.devRef .tc b) = W0 m ρ c (Proc.devRef .tc b) := by
  by_cases h0 : b = main_arg1
  · subst h0
    exact (W1_arr m ρ c 0).trans (((dat0 (V0 m ρ) c).arrAt_in 0 rfl _).trans (A_eq0 (V0 m ρ) c 0))
  by_cases h1 : b = main_arg6
  · subst h1
    exact (W1_arr m ρ c 1).trans (((dat0 (V0 m ρ) c).arrAt_in 1 rfl _).trans (A_eq0 (V0 m ρ) c 1))
  have key : ∀ w : Fin cfg0.W, isArg (Pipeline.arrRef spec0 w) → Pipeline.arrRef spec0 w = main_arg1 ∨ Pipeline.arrRef spec0 w = main_arg6 := by decide
  refine W1_of_ne m ρ c b fun w e => ?_
  subst e
  rcases key w hb with e' | e'
  · exact h0 e'
  · exact h1 e'

theorem keep_r1 (c : Dev nD) (b : Ref sig .tc) (hb : isKept b) :
    W3 m ρ c (Proc.devRef .tc b) = W2 m ρ c (Proc.devRef .tc b) := by
  by_cases h1 : b = main_v0_0
  · subst h1
    exact (W3_arr m ρ c 1).trans (((dat1 (V2 m ρ) c).arrAt_in 1 rfl _).trans (A_eq1 (V2 m ρ) c 1))
  by_cases h2 : b = main_arg7
  · subst h2
    exact (W3_arr m ρ c 2).trans (((dat1 (V2 m ρ) c).arrAt_in 2 rfl _).trans (A_eq1 (V2 m ρ) c 2))
  have key : ∀ w : Fin cfg1.W, isKept (Pipeline.arrRef spec1 w) → Pipeline.arrRef spec1 w = main_v0_0 ∨ Pipeline.arrRef spec1 w = main_arg7 := by decide
  refine W3_of_ne m ρ c b fun w e => ?_
  subst e
  rcases key w hb with e' | e'
  · exact h1 e'
  · exact h2 e'

theorem keep_r2 (c : Dev nD) (b : Ref sig .tc) (hb : isKept b) :
    W5 m ρ c (Proc.devRef .tc b) = W4 m ρ c (Proc.devRef .tc b) := by
  by_cases h1 : b = main_v0_0
  · subst h1
    exact (W5_arr m ρ c 1).trans (((dat2 (V4 m ρ) c).arrAt_in 1 rfl _).trans (A_eq2 (V4 m ρ) c 1))
  by_cases h2 : b = main_arg7
  · subst h2
    exact (W5_arr m ρ c 2).trans (((dat2 (V4 m ρ) c).arrAt_in 2 rfl _).trans (A_eq2 (V4 m ρ) c 2))
  have key : ∀ w : Fin cfg2.W, isKept (Pipeline.arrRef spec2 w) → Pipeline.arrRef spec2 w = main_v0_0 ∨ Pipeline.arrRef spec2 w = main_arg7 := by decide
  refine W5_of_ne m ρ c b fun w e => ?_
  subst e
  rcases key w hb with e' | e'
  · exact h1 e'
  · exact h2 e'

theorem keep_r3 (c : Dev nD) (b : Ref sig .tc) (hb : isKept b) :
    W7 m ρ c (Proc.devRef .tc b) = W6 m ρ c (Proc.devRef .tc b) := by
  by_cases h1 : b = main_v0_0
  · subst h1
    exact (W7_arr m ρ c 1).trans (((dat3 (V6 m ρ) c).arrAt_in 1 rfl _).trans (A_eq3 (V6 m ρ) c 1))
  by_cases h2 : b = main_arg7
  · subst h2
    exact (W7_arr m ρ c 2).trans (((dat3 (V6 m ρ) c).arrAt_in 2 rfl _).trans (A_eq3 (V6 m ρ) c 2))
  have key : ∀ w : Fin cfg3.W, isKept (Pipeline.arrRef spec3 w) → Pipeline.arrRef spec3 w = main_v0_0 ∨ Pipeline.arrRef spec3 w = main_arg7 := by decide
  refine W7_of_ne m ρ c b fun w e => ?_
  subst e
  rcases key w hb with e' | e'
  · exact h1 e'
  · exact h2 e'

theorem keep_r4 (c : Dev nD) (b : Ref sig .tc) (hb : isKept b) :
    W9 m ρ c (Proc.devRef .tc b) = W8 m ρ c (Proc.devRef .tc b) := by
  by_cases h1 : b = main_v0_0
  · subst h1
    exact (W9_arr m ρ c 1).trans (((dat4 (V8 m ρ) c).arrAt_in 1 rfl _).trans (A_eq4 (V8 m ρ) c 1))
  by_cases h2 : b = main_arg7
  · subst h2
    exact (W9_arr m ρ c 2).trans (((dat4 (V8 m ρ) c).arrAt_in 2 rfl _).trans (A_eq4 (V8 m ρ) c 2))
  have key : ∀ w : Fin cfg4.W, isKept (Pipeline.arrRef spec4 w) → Pipeline.arrRef spec4 w = main_v0_0 ∨ Pipeline.arrRef spec4 w = main_arg7 := by decide
  refine W9_of_ne m ρ c b fun w e => ?_
  subst e
  rcases key w hb with e' | e'
  · exact h1 e'
  · exact h2 e'

theorem keep_r5 (c : Dev nD) (b : Ref sig .tc) (hb : isKept b) :
    W11 m ρ c (Proc.devRef .tc b) = W10 m ρ c (Proc.devRef .tc b) := by
  by_cases h1 : b = main_v0_0
  · subst h1
    exact (W11_arr m ρ c 1).trans (((dat5 (V10 m ρ) c).arrAt_in 1 rfl _).trans (A_eq5 (V10 m ρ) c 1))
  by_cases h2 : b = main_arg7
  · subst h2
    exact (W11_arr m ρ c 2).trans (((dat5 (V10 m ρ) c).arrAt_in 2 rfl _).trans (A_eq5 (V10 m ρ) c 2))
  have key : ∀ w : Fin cfg5.W, isKept (Pipeline.arrRef spec5 w) → Pipeline.arrRef spec5 w = main_v0_0 ∨ Pipeline.arrRef spec5 w = main_arg7 := by decide
  refine W11_of_ne m ρ c b fun w e => ?_
  subst e
  rcases key w hb with e' | e'
  · exact h1 e'
  · exact h2 e'

theorem keep_r6 (c : Dev nD) (b : Ref sig .tc) (hb : isKept b) :
    W13 m ρ c (Proc.devRef .tc b) = W12 m ρ c (Proc.devRef .tc b) := by
  by_cases h0 : b = main_arg0
  · subst h0
    exact (W13_arr m ρ c 0).trans (((dat6 (V12 m ρ) c).arrAt_in 0 rfl _).trans (A_eq6 (V12 m ρ) c 0))
  have key : ∀ w : Fin cfg6.W, isKept (Pipeline.arrRef spec6 w) → Pipeline.arrRef spec6 w = main_arg0 := by decide
  refine W13_of_ne m ρ c b fun w e => ?_
  subst e
  exact h0 (key w hb)

theorem keep_r7 (c : Dev nD) (b : Ref sig .tc) (hb : isKept b) :
    W17 m ρ c (Proc.devRef .tc b) = W16 m ρ c (Proc.devRef .tc b) := by
  by_cases h1 : b = main_arg10
  · subst h1
    exact (W17_arr m ρ c 1).trans (((dat7 (V16 m ρ) c).arrAt_in 1 rfl _).trans (A_eq7 (V16 m ρ) c 1))
  by_cases h3 : b = main_arg12
  · subst h3
    exact (W17_arr m ρ c 3).trans (((dat7 (V16 m ρ) c).arrAt_in 3 rfl _).trans (A_eq7 (V16 m ρ) c 3))
  have key : ∀ w : Fin cfg7.W, isKept (Pipeline.arrRef spec7 w) → Pipeline.arrRef spec7 w = main_arg10 ∨ Pipeline.arrRef spec7 w = main_arg12 := by decide
  refine W17_of_ne m ρ c b fun w e => ?_
  subst e
  rcases key w hb with e' | e'
  · exact h1 e'
  · exact h3 e'

/-! ## The kept buffers at each boundary -/

/-- Up to region 6's entry every kept buffer holds what it held at the first region's exit. -/
theorem at2 (c : Dev nD) (b : Ref sig .tc) (hb : isKept b) : W2 m ρ c (Proc.devRef .tc b) = W1 m ρ c (Proc.devRef .tc b) :=
  keep_h1 _ b hb
theorem at3 (c : Dev nD) (b : Ref sig .tc) (hb : isKept b) : W3 m ρ c (Proc.devRef .tc b) = W1 m ρ c (Proc.devRef .tc b) :=
  (keep_r1 m ρ c b hb).trans (at2 m ρ c b hb)
theorem at4 (c : Dev nD) (b : Ref sig .tc) (hb : isKept b) : W4 m ρ c (Proc.devRef .tc b) = W1 m ρ c (Proc.devRef .tc b) :=
  (keep_h2 _ b hb).trans (at3 m ρ c b hb)
theorem at5 (c : Dev nD) (b : Ref sig .tc) (hb : isKept b) : W5 m ρ c (Proc.devRef .tc b) = W1 m ρ c (Proc.devRef .tc b) :=
  (keep_r2 m ρ c b hb).trans (at4 m ρ c b hb)
theorem at6 (c : Dev nD) (b : Ref sig .tc) (hb : isKept b) : W6 m ρ c (Proc.devRef .tc b) = W1 m ρ c (Proc.devRef .tc b) :=
  (keep_h3 _ b hb).trans (at5 m ρ c b hb)
theorem at7 (c : Dev nD) (b : Ref sig .tc) (hb : isKept b) : W7 m ρ c (Proc.devRef .tc b) = W1 m ρ c (Proc.devRef .tc b) :=
  (keep_r3 m ρ c b hb).trans (at6 m ρ c b hb)
theorem at8 (c : Dev nD) (b : Ref sig .tc) (hb : isKept b) : W8 m ρ c (Proc.devRef .tc b) = W1 m ρ c (Proc.devRef .tc b) :=
  (keep_h4 _ b hb).trans (at7 m ρ c b hb)
theorem at9 (c : Dev nD) (b : Ref sig .tc) (hb : isKept b) : W9 m ρ c (Proc.devRef .tc b) = W1 m ρ c (Proc.devRef .tc b) :=
  (keep_r4 m ρ c b hb).trans (at8 m ρ c b hb)
theorem at10 (c : Dev nD) (b : Ref sig .tc) (hb : isKept b) : W10 m ρ c (Proc.devRef .tc b) = W1 m ρ c (Proc.devRef .tc b) :=
  (keep_h5 _ b hb).trans (at9 m ρ c b hb)
theorem at11 (c : Dev nD) (b : Ref sig .tc) (hb : isKept b) : W11 m ρ c (Proc.devRef .tc b) = W1 m ρ c (Proc.devRef .tc b) :=
  (keep_r5 m ρ c b hb).trans (at10 m ρ c b hb)
theorem at12 (c : Dev nD) (b : Ref sig .tc) (hb : isKept b) : W12 m ρ c (Proc.devRef .tc b) = W1 m ρ c (Proc.devRef .tc b) :=
  (keep_h6 _ b hb).trans (at11 m ρ c b hb)
theorem at13 (c : Dev nD) (b : Ref sig .tc) (hb : isKept b) : W13 m ρ c (Proc.devRef .tc b) = W1 m ρ c (Proc.devRef .tc b) :=
  (keep_r6 m ρ c b hb).trans (at12 m ρ c b hb)
theorem at14 (c : Dev nD) (b : Ref sig .tc) (hb : isKept b) : W14 m ρ c (Proc.devRef .tc b) = W1 m ρ c (Proc.devRef .tc b) :=
  (keep_h7 _ b hb).trans (at13 m ρ c b hb)
theorem at15 (c : Dev nD) (b : Ref sig .tc) (hb : isKept b) : W15 m ρ c (Proc.devRef .tc b) = W1 m ρ c (Proc.devRef .tc b) :=
  (keep_h7_1 _ b hb).trans (at14 m ρ c b hb)
theorem at16 (c : Dev nD) (b : Ref sig .tc) (hb : isKept b) : W16 m ρ c (Proc.devRef .tc b) = W1 m ρ c (Proc.devRef .tc b) :=
  (keep_h7_2 _ b hb).trans (at15 m ρ c b hb)

/-- An argument holds its launch contents at the first region's exit. -/
theorem arg1 (c : Dev nD) (b : Ref sig .tc) (hb : isArg b) : W1 m ρ c (Proc.devRef .tc b) = m ((c : Thread nD τ).loc b) :=
  keep_r0 m ρ c b hb

end Cert.KernelIdeal.Kept

end
-- ==== Proof.Inp0.lean ====
/-
  The first stage of the network, as the kernel computes it block by block: every grid point `t` reads rows
  `[4000 t, 4000 t + 4000)` of the bond features and the whole input weight matrix, and writes back the same rows of the
  product (the input message) and of its ReLU (the first message). Entry `(r, q)` depends on row `r` of the features
  only, so each block written is the restriction of the whole-array stage to those rows, and the hundred blocks tile
  each array.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Inp0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product's entry: the feature block's row times the weights' column. -/
theorem pay1_apply (x0 : Vec Ideal S4000x147 .f32) (x1 : Vec Ideal S147x128 .f32) (p : Fin 4000) (q : Fin 128) :
    k0_pay1 (F := Ideal) x0 x1 (ix2 p q) = ∑ j : Fin 147, x0 (ix2 p j) * x1 (ix2 j q) := by
  unfold k0_pay1
  exact kern_lin_apply dot_S4000x147_S147x128_S4000x128_1_0_0_1_n_n rfl _ _ p q

/-- The first message's entry: the product's entry floored at zero. -/
theorem pay2_apply (x0 : Vec Ideal S4000x147 .f32) (x1 : Vec Ideal S147x128 .f32) (p : Fin 4000) (q : Fin 128) :
    k0_pay2 (F := Ideal) x0 x1 (ix2 p q) = max (∑ j : Fin 147, x0 (ix2 p j) * x1 (ix2 j q)) zr := by
  show max (k0_pay1 (F := Ideal) x0 x1 (ix2 p q)) zr = _
  rw [pay1_apply]

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 4000) : t.val * 4000 + p.val < 400000 := by
  have hN : cfg0.N = 100 := N_0
  have ht : t.val < cfg0.N := t.isLt
  have hp : p.val < 4000 := p.isLt
  omega

/-- The feature block at `t` holds rows `4000 t + p` of the bond features. -/
theorem blk0 (c : Dev nD) (t : Fin cfg0.N) (p : Fin 4000) (j : Fin 147) :
    iblk0 V c 0 t (ix2 p j) = V c main_arg1 (ix2 ⟨t.val * 4000 + p.val, row_lt t p⟩ j) := by
  show V c main_arg1 (((cfg0.win 0).blk t).view.emb (ix2 p j)) = _
  obtain ⟨e00, e01, -⟩ := idx_facts t
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 147 + 1 * j.val = j.val; omega

/-- The weights' block is the whole weight matrix at every point. -/
theorem blk1 (c : Dev nD) (t : Fin cfg0.N) (i : Fin 147) (j : Fin 128) :
    iblk0 V c 1 t (ix2 i j) = V c main_arg6 (ix2 i j) := by
  show V c main_arg6 (((cfg0.win 1).blk t).view.emb (ix2 i j)) = _
  obtain ⟨-, -, e10, e11, -⟩ := idx_facts t
  refine congrArg _ (funext fun a => Fin.ext ?_)
  match a with
  | ⟨0, _⟩ => show win0_1.index t (0 : Fin 2) * 147 + 1 * i.val = i.val; omega
  | ⟨1, _⟩ => show win0_1.index t (1 : Fin 2) * 128 + 1 * j.val = j.val; omega

/-- What point `t` writes back to the input message is block `t` of the product of the arrays the region found. -/
theorem flushed2_eq (c : Dev nD) (t : Fin cfg0.N) :
    (dat0 V c).flushed 2 t = ((cfg0.win 2).blk t).view.read (Elt Ideal) (linRows (V c main_arg1) (V c main_arg6)) := by
  show (cfg0.win 2).cut (grid0.coords t) ((dat0 V c).after 2 t) = _
  rw [after0_2]
  unfold out0_2
  rw [View.canon_unit_zero hz]
  simp only [View.ld_unit_zero (S := S4000x147) hz, View.ld_unit_zero (S := S147x128) hz]
  funext y
  obtain ⟨p, q, rfl⟩ : ∃ (p : Fin 4000) (q : Fin 128), y = ix2 p q := ⟨y 0, y 1, eq_ix2 y⟩
  show k0_pay1 (F := Ideal) (iblk0 V c 0 t) (iblk0 V c 1 t) (ix2 p q)
    = linRows (V c main_arg1) (V c main_arg6) (((cfg0.win 2).blk t).view.emb (ix2 p q))
  have hemb : ((cfg0.win 2).blk t).view.emb (ix2 p q) = ix2 ⟨t.val * 4000 + p.val, row_lt t p⟩ q := by
    obtain ⟨-, -, -, -, e20, e21, -⟩ := idx_facts t
    funext a; apply Fin.ext
    match a with
    | ⟨0, _⟩ => show win0_2.index t (0 : Fin 2) * 4000 + 1 * p.val = t.val * 4000 + p.val; omega
    | ⟨1, _⟩ => show win0_2.index t (1 : Fin 2) * 128 + 1 * q.val = q.val; omega
  rw [hemb, linRows_ix2]
  refine (pay1_apply _ _ p q).trans (Finset.sum_congr rfl fun j _ => ?_)
  rw [blk0 V c t p j, blk1 V c t j q]

/-- What point `t` writes back to the first message is block `t` of the floored product. -/
theorem flushed3_eq (c : Dev nD) (t : Fin cfg0.N) :
    (dat0 V c).flushed 3 t = ((cfg0.win 3).blk t).view.read (Elt Ideal)
      (reluRows (linRows (V c main_arg1) (V c main_arg6))) := by
  show (cfg0.win 3).cut (grid0.coords t) ((dat0 V c).after 3 t) = _
  rw [after0_3]
  unfold out0_3
  rw [View.canon_unit_zero hz]
  simp only [View.ld_unit_zero (S := S4000x147) hz, View.ld_unit_zero (S := S147x128) hz]
  funext y
  obtain ⟨p, q, rfl⟩ : ∃ (p : Fin 4000) (q : Fin 128), y = ix2 p q := ⟨y 0, y 1, eq_ix2 y⟩
  show k0_pay2 (F := Ideal) (iblk0 V c 0 t) (iblk0 V c 1 t) (ix2 p q)
    = reluRows (linRows (V c main_arg1) (V c main_arg6)) (((cfg0.win 3).blk t).view.emb (ix2 p q))
  have hemb : ((cfg0.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  rw [hemb, reluRows_ix2, linRows_ix2]
  refine (pay2_apply _ _ p q).trans ?_
  refine congrArg (fun s => max s zr) (Finset.sum_congr rfl fun j _ => ?_)
  rw [blk0 V c t p j, blk1 V c t j q]

theorem mem_blk2 (t : Fin cfg0.N) (i : S400000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0_0).slice (win0_2.rect t)).set ↔ _
  rw [View.set_slice_whole, Rect.mem_set_unit]
  exact Iff.rfl

theorem mem_blk3 (t : Fin cfg0.N) (i : S400000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v0_1).slice (win0_3.rect t)).set ↔ _
  rw [View.set_slice_whole, Rect.mem_set_unit]
  exact Iff.rfl

/-- Row `r` is in the block of the point `r / 4000`. -/
theorem cover2 (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  have hN : cfg0.N = 100 := N_0
  have hlt : (i 0).val / 4000 < cfg0.N := by rw [hN]; omega
  refine ⟨⟨(i 0).val / 4000, hlt⟩, flush0_2 _, ?_⟩
  rw [mem_blk2]
  obtain ⟨-, -, -, -, e20, e21, -⟩ := idx_facts ⟨(i 0).val / 4000, hlt⟩
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e20]
    show (i 0).val / 4000 * 4000 ≤ (i 0).val ∧ (i 0).val < (i 0).val / 4000 * 4000 + 4000
    omega
  | ⟨1, _⟩ =>
    show win0_2.index ⟨(i 0).val / 4000, hlt⟩ (1 : Fin 2) * 128 ≤ (i 1).val
      ∧ (i 1).val < win0_2.index ⟨(i 0).val / 4000, hlt⟩ (1 : Fin 2) * 128 + 128
    omega

theorem cover3 (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  have hN : cfg0.N = 100 := N_0
  have hlt : (i 0).val / 4000 < cfg0.N := by rw [hN]; omega
  refine ⟨⟨(i 0).val / 4000, hlt⟩, flush0_3 _, ?_⟩
  rw [mem_blk3]
  obtain ⟨-, -, -, -, -, -, e30, e31⟩ := idx_facts ⟨(i 0).val / 4000, hlt⟩
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win0_3.index ⟨(i 0).val / 4000, hlt⟩ (1 : Fin 2) * 128 ≤ (i 1).val
      ∧ (i 1).val < win0_3.index ⟨(i 0).val / 4000, hlt⟩ (1 : Fin 2) * 128 + 128
    omega

/-- The input message after the region: the product of the bond features with the input weights. -/
theorem final2 (c : Dev nD) : (dat0 V c).arrAt 2 cfg0.N = linRows (V c main_arg1) (V c main_arg6) :=
  (dat0 V c).arrAt_eq_of_cover 2 _ (fun t _ => flushed2_eq V c t) cover2

/-- The first message after the region: the ReLU of that product. -/
theorem final3 (c : Dev nD) : (dat0 V c).arrAt 3 cfg0.N = reluRows (linRows (V c main_arg1) (V c main_arg6)) :=
  (dat0 V c).arrAt_eq_of_cover 3 _ (fun t _ => flushed3_eq V c t) cover3

end Cert.KernelIdeal.Inp0

end
-- ==== Proof.Upd1.lean ====
/-
  Message update 1 of the network, as the kernel computes it block by block: every grid point `t` reads rows
  `[4000 t, 4000 t + 4000)` of the neighbourhood difference and of the input message and the whole weight matrix, and
  writes back the same rows of `max (Inp + D · w) 0`. Entry `(r, q)` of that stage depends on row `r` of `D` and of
  `Inp` only, so the block written at `t` is the restriction of the whole-array stage `updRows` to those rows, and the
  hundred blocks tile the array: the array ends holding `updRows` of the arrays the region found.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Upd1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the input block's entry plus the difference block's row times the weights'
    column, floored at zero (the roundings to bfloat16 are the identity on the extended reals). -/
theorem pay_apply (x0 : Vec Ideal S4000x128 .f32) (x2 : Vec Ideal S128x128 .f32) (x1 : Vec Ideal S4000x128 .f32)
    (p : Fin 4000) (q : Fin 128) :
    k1_pay1 (F := Ideal) x0 x2 x1 (ix2 p q) = max (x1 (ix2 p q) + ∑ j : Fin 128, x0 (ix2 p j) * x2 (ix2 j q)) zr := by
  unfold k1_pay1
  exact kern_upd_apply dot_S4000x128_S128x128_S4000x128_1_0_0_1_n_n rfl x0 x2 x1 _ _ _ p q

/-- The printed index maps over the grid: the row blocks move with the grid point, the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 4000) : t.val * 4000 + p.val < 400000 := by
  have hN : cfg1.N = 100 := N_1
  have ht : t.val < cfg1.N := t.isLt
  have hp : p.val < 4000 := p.isLt
  omega

/-- The difference block at `t` holds rows `4000 t + p` of the difference array. -/
theorem blk0 (c : Dev nD) (t : Fin cfg1.N) (p : Fin 4000) (j : Fin 128) :
    iblk1 V c 0 t (ix2 p j) = V c main_v23 (ix2 ⟨t.val * 4000 + p.val, row_lt t p⟩ j) := by
  show V c main_v23 (((cfg1.win 0).blk t).view.emb (ix2 p j)) = _
  obtain ⟨e00, e01, -⟩ := idx_facts t
  refine congrArg _ (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * j.val = j.val; omega

/-- The input-message block at `t` holds the same rows of the input message. -/
theorem blk1 (c : Dev nD) (t : Fin cfg1.N) (p : Fin 4000) (j : Fin 128) :
    iblk1 V c 1 t (ix2 p j) = V c main_v0_0 (ix2 ⟨t.val * 4000 + p.val, row_lt t p⟩ j) := by
  show V c main_v0_0 (((cfg1.win 1).blk t).view.emb (ix2 p j)) = _
  obtain ⟨-, -, e10, e11, -⟩ := idx_facts t
  refine congrArg _ (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * j.val = j.val; omega

/-- The weights' block is the whole weight matrix at every point. -/
theorem blk2 (c : Dev nD) (t : Fin cfg1.N) (i : Fin 128) (j : Fin 128) :
    iblk1 V c 2 t (ix2 i j) = V c main_arg7 (ix2 i j) := by
  show V c main_arg7 (((cfg1.win 2).blk t).view.emb (ix2 i j)) = _
  obtain ⟨-, -, -, -, e20, e21, -⟩ := idx_facts t
  refine congrArg _ (funext fun a => Fin.ext ?_)
  match a with
  | ⟨0, _⟩ => show win1_2.index t (0 : Fin 2) * 128 + 1 * i.val = i.val; omega
  | ⟨1, _⟩ => show win1_2.index t (1 : Fin 2) * 128 + 1 * j.val = j.val; omega

/-- What point `t` writes back is block `t` of the stage of the arrays the region found. -/
theorem flushed_eq (c : Dev nD) (t : Fin cfg1.N) :
    (dat1 V c).flushed 3 t = ((cfg1.win 3).blk t).view.read (Elt Ideal)
      (updRows (V c main_v23) (V c main_v0_0) (V c main_arg7)) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz]
  funext y
  obtain ⟨p, q, rfl⟩ : ∃ (p : Fin 4000) (q : Fin 128), y = ix2 p q := ⟨y 0, y 1, eq_ix2 y⟩
  show k1_pay1 (F := Ideal) (iblk1 V c 0 t) (iblk1 V c 2 t) (iblk1 V c 1 t) (ix2 p q)
    = updRows (V c main_v23) (V c main_v0_0) (V c main_arg7) (((cfg1.win 3).blk t).view.emb (ix2 p q))
  have hemb : ((cfg1.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win1_3.index t (0 : Fin 2) * 4000 + 1 * p.val = t.val * 4000 + p.val; omega
    | ⟨1, _⟩ => show win1_3.index t (1 : Fin 2) * 128 + 1 * q.val = q.val; omega
  rw [hemb, updRows_ix2]
  refine (pay_apply _ _ _ p q).trans ?_
  simp only [blk0 V c t p, blk1 V c t p, blk2 V c t]

/-- An index is in point `t`'s block iff each coordinate is in the block's range on its axis. -/
theorem mem_blk (t : Fin cfg1.N) (i : S400000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v24).slice (win1_3.rect t)).set ↔ _
  rw [View.set_slice_whole, Rect.mem_set_unit]
  exact Iff.rfl

/-- Row `r` is in the block of the point `r / 4000`: the hundred blocks tile the array. -/
theorem cover (i : S400000x128.Idx) :
    ∃ t : Fin cfg1.N, (cfg1.win 3).flush t = true ∧ i ∈ ((cfg1.win 3).blk t).view.set := by
  have hi0 : (i 0).val < 400000 := (i 0).isLt
  have hi1 : (i 1).val < 128 := (i 1).isLt
  have hN : cfg1.N = 100 := N_1
  have hlt : (i 0).val / 4000 < cfg1.N := by rw [hN]; omega
  refine ⟨⟨(i 0).val / 4000, hlt⟩, flush1_3 _, ?_⟩
  rw [mem_blk]
  obtain ⟨-, -, -, -, -, -, e30, e31⟩ := idx_facts ⟨(i 0).val / 4000, hlt⟩
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    omega

/-- The message array after the region: the update stage of the arrays the region found. -/
theorem final (c : Dev nD) :
    (dat1 V c).arrAt 3 cfg1.N = updRows (V c main_v23) (V c main_v0_0) (V c main_arg7) :=
  (dat1 V c).arrAt_eq_of_cover 3 _ (fun t _ => flushed_eq V c t) cover

end Cert.KernelIdeal.Upd1

end
-- ==== Proof.Upd2.lean ====
/-
  Message update 2 of the network, as the kernel computes it block by block: every grid point `t` reads rows
  `[4000 t, 4000 t + 4000)` of the neighbourhood difference and of the input message and the whole weight matrix, and
  writes back the same rows of `max (Inp + D · w) 0`. Entry `(r, q)` of that stage depends on row `r` of `D` and of
  `Inp` only, so the block written at `t` is the restriction of the whole-array stage `updRows` to those rows, and the
  hundred blocks tile the array: the array ends holding `updRows` of the arrays the region found.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Upd2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the input block's entry plus the difference block's row times the weights'
    column, floored at zero (the roundings to bfloat16 are the identity on the extended reals). -/
theorem pay_apply (x0 : Vec Ideal S4000x128 .f32) (x2 : Vec Ideal S128x128 .f32) (x1 : Vec Ideal S4000x128 .f32)
    (p : Fin 4000) (q : Fin 128) :
    k2_pay1 (F := Ideal) x0 x2 x1 (ix2 p q) = max (x1 (ix2 p q) + ∑ j : Fin 128, x0 (ix2 p j) * x2 (ix2 j q)) zr := by
  unfold k2_pay1
  exact kern_upd_apply dot_S4000x128_S128x128_S4000x128_1_0_0_1_n_n rfl x0 x2 x1 _ _ _ p q

/-- The printed index maps over the grid: the row blocks move with the grid point, the weights stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem row_lt (t : Fin cfg2.N) (p : Fin 4000) : t.val * 4000 + p.val < 400000 := by
  have hN : cfg2.N = 100 := N_2
  have ht : t.val < cfg2.N := t.isLt
  have hp : p.val < 4000 := p.isLt
  omega

/-- The difference block at `t` holds rows `4000 t + p` of the difference array. -/
theorem blk0 (c : Dev nD) (t : Fin cfg2.N) (p : Fin 4000) (j : Fin 128) :
    iblk2 V c 0 t (ix2 p j) = V c main_v47 (ix2 ⟨t.val * 4000 + p.val, row_lt t p⟩ j) := by
  show V c main_v47 (((cfg2.win 0).blk t).view.emb (ix2 p j)) = _
  obtain ⟨e00, e01, -⟩ := idx_facts t
  refine congrArg _ (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * j.val = j.val; omega

/-- The input-message block at `t` holds the same rows of the input message. -/
theorem blk1 (c : Dev nD) (t : Fin cfg2.N) (p : Fin 4000) (j : Fin 128) :
    iblk2 V c 1 t (ix2 p j) = V c main_v0_0 (ix2 ⟨t.val * 4000 + p.val, row_lt t p⟩ j) := by
  show V c main_v0_0 (((cfg2.win 1).blk t).view.emb (ix2 p j)) = _
  obtain ⟨-, -, e10, e11, -⟩ := idx_facts t
  refine congrArg _ (funext fun a => Fin.ext ?_)
  match a with
  | ⟨0, _⟩ => show win2_1.index t (0 : Fin 2) * 4000 + 1 * p.val = t.val * 4000 + p.val; omega
  | ⟨1, _⟩ => show win2_1.index t (1 : Fin 2) * 128 + 1 * j.val = j.val; omega

/-- The weights' block is the whole weight matrix at every point. -/
theorem blk2 (c : Dev nD) (t : Fin cfg2.N) (i : Fin 128) (j : Fin 128) :
    iblk2 V c 2 t (ix2 i j) = V c main_arg7 (ix2 i j) := by
  show V c main_arg7 (((cfg2.win 2).blk t).view.emb (ix2 i j)) = _
  obtain ⟨-, -, -, -, e20, e21, -⟩ := idx_facts t
  refine congrArg _ (funext fun a => Fin.ext ?_)
  match a with
  | ⟨0, _⟩ => show win2_2.index t (0 : Fin 2) * 128 + 1 * i.val = i.val; omega
  | ⟨1, _⟩ => show win2_2.index t (1 : Fin 2) * 128 + 1 * j.val = j.val; omega

/-- What point `t` writes back is block `t` of the stage of the arrays the region found. -/
theorem flushed_eq (c : Dev nD) (t : Fin cfg2.N) :
    (dat2 V c).flushed 3 t = ((cfg2.win 3).blk t).view.read (Elt Ideal)
      (updRows (V c main_v47) (V c main_v0_0) (V c main_arg7)) := by
  show (cfg2.win 3).cut (grid2.coords t) ((dat2 V c).after 3 t) = _
  rw [after2_3]
  unfold out2_3
  rw [View.canon_unit_zero hz]
  simp only [View.ld_unit_zero (S := S4000x128) hz, View.ld_unit_zero (S := S128x128) hz]
  funext y
  obtain ⟨p, q, rfl⟩ : ∃ (p : Fin 4000) (q : Fin 128), y = ix2 p q := ⟨y 0, y 1, eq_ix2 y⟩
  show k2_pay1 (F := Ideal) (iblk2 V c 0 t) (iblk2 V c 2 t) (iblk2 V c 1 t) (ix2 p q)
    = updRows (V c main_v47) (V c main_v0_0) (V c main_arg7) (((cfg2.win 3).blk t).view.emb (ix2 p q))
  have hemb : ((cfg2.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win2_3.index t (0 : Fin 2) * 4000 + 1 * p.val = t.val * 4000 + p.val; omega
    | ⟨1, _⟩ => show win2_3.index t (1 : Fin 2) * 128 + 1 * q.val = q.val; omega
  rw [hemb, updRows_ix2]
  refine (pay_apply _ _ _ p q).trans ?_
  simp only [blk0 V c t p, blk1 V c t p, blk2 V c t]

/-- An index is in point `t`'s block iff each coordinate is in the block's range on its axis. -/
theorem mem_blk (t : Fin cfg2.N) (i : S400000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v48).slice (win2_3.rect t)).set ↔ _
  rw [View.set_slice_whole, Rect.mem_set_unit]
  exact Iff.rfl

/-- Row `r` is in the block of the point `r / 4000`: the hundred blocks tile the array. -/
theorem cover (i : S400000x128.Idx) :
    ∃ t : Fin cfg2.N, (cfg2.win 3).flush t = true ∧ i ∈ ((cfg2.win 3).blk t).view.set := by
  have hi0 : (i 0).val < 400000 := (i 0).isLt
  have hi1 : (i 1).val < 128 := (i 1).isLt
  have hN : cfg2.N = 100 := N_2
  have hlt : (i 0).val / 4000 < cfg2.N := by rw [hN]; omega
  refine ⟨⟨(i 0).val / 4000, hlt⟩, flush2_3 _, ?_⟩
  rw [mem_blk]
  obtain ⟨-, -, -, -, -, -, e30, e31⟩ := idx_facts ⟨(i 0).val / 4000, hlt⟩
  intro a
  match a with
  | ⟨0, _⟩ =>
    show win2_3.index ⟨(i 0).val / 4000, hlt⟩ (0 : Fin 2) * 4000 ≤ (i 0).val
      ∧ (i 0).val < win2_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win2_3.index ⟨(i 0).val / 4000, hlt⟩ (1 : Fin 2) * 128 ≤ (i 1).val
      ∧ (i 1).val < win2_3.index ⟨(i 0).val / 4000, hlt⟩ (1 : Fin 2) * 128 + 128
    omega

/-- The message array after the region: the update stage of the arrays the region found. -/
theorem final (c : Dev nD) :
    (dat2 V c).arrAt 3 cfg2.N = updRows (V c main_v47) (V c main_v0_0) (V c main_arg7) :=
  (dat2 V c).arrAt_eq_of_cover 3 _ (fun t _ => flushed_eq V c t) cover

end Cert.KernelIdeal.Upd2

end
-- ==== Proof.Upd3.lean ====
/-
  Message update 3 of the network, as the kernel computes it block by block: every grid point `t` reads rows
  `[4000 t, 4000 t + 4000)` of the neighbourhood difference and of the input message and the whole weight matrix, and
  writes back the same rows of `max (Inp + D · w) 0`. Entry `(r, q)` of that stage depends on row `r` of `D` and of
  `Inp` only, so the block written at `t` is the restriction of the whole-array stage `updRows` to those rows, and the
  hundred blocks tile the array: the array ends holding `updRows` of the arrays the region found.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Upd3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the input block's entry plus the difference block's row times the weights'
    column, floored at zero (the roundings to bfloat16 are the identity on the extended reals). -/
theorem pay_apply (x0 : Vec Ideal S4000x128 .f32) (x2 : Vec Ideal S128x128 .f32) (x1 : Vec Ideal S4000x128 .f32)
    (p : Fin 4000) (q : Fin 128) :
    k3_pay1 (F := Ideal) x0 x2 x1 (ix2 p q) = max (x1 (ix2 p q) + ∑ j : Fin 128, x0 (ix2 p j) * x2 (ix2 j q)) zr := by
  unfold k3_pay1
  exact kern_upd_apply dot_S4000x128_S128x128_S4000x128_1_0_0_1_n_n rfl x0 x2 x1 _ _ _ p q

/-- The printed index maps over the grid: the row blocks move with the grid point, the weights stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem row_lt (t : Fin cfg3.N) (p : Fin 4000) : t.val * 4000 + p.val < 400000 := by
  have hN : cfg3.N = 100 := N_3
  have ht : t.val < cfg3.N := t.isLt
  have hp : p.val < 4000 := p.isLt
  omega

/-- The difference block at `t` holds rows `4000 t + p` of the difference array. -/
theorem blk0 (c : Dev nD) (t : Fin cfg3.N) (p : Fin 4000) (j : Fin 128) :
    iblk3 V c 0 t (ix2 p j) = V c main_v71 (ix2 ⟨t.val * 4000 + p.val, row_lt t p⟩ j) := by
  show V c main_v71 (((cfg3.win 0).blk t).view.emb (ix2 p j)) = _
  obtain ⟨e00, e01, -⟩ := idx_facts t
  refine congrArg _ (funext fun a => Fin.ext ?_)
  match a with
  | ⟨0, _⟩ => show win3_0.index t (0 : Fin 2) * 4000 + 1 * p.val = t.val * 4000 + p.val; omega
  | ⟨1, _⟩ => show win3_0.index t (1 : Fin 2) * 128 + 1 * j.val = j.val; omega

/-- The input-message block at `t` holds the same rows of the input message. -/
theorem blk1 (c : Dev nD) (t : Fin cfg3.N) (p : Fin 4000) (j : Fin 128) :
    iblk3 V c 1 t (ix2 p j) = V c main_v0_0 (ix2 ⟨t.val * 4000 + p.val, row_lt t p⟩ j) := by
  show V c main_v0_0 (((cfg3.win 1).blk t).view.emb (ix2 p j)) = _
  obtain ⟨-, -, e10, e11, -⟩ := idx_facts t
  refine congrArg _ (funext fun a => Fin.ext ?_)
  match a with
  | ⟨0, _⟩ => show win3_1.index t (0 : Fin 2) * 4000 + 1 * p.val = t.val * 4000 + p.val; omega
  | ⟨1, _⟩ => show win3_1.index t (1 : Fin 2) * 128 + 1 * j.val = j.val; omega

/-- The weights' block is the whole weight matrix at every point. -/
theorem blk2 (c : Dev nD) (t : Fin cfg3.N) (i : Fin 128) (j : Fin 128) :
    iblk3 V c 2 t (ix2 i j) = V c main_arg7 (ix2 i j) := by
  show V c main_arg7 (((cfg3.win 2).blk t).view.emb (ix2 i j)) = _
  obtain ⟨-, -, -, -, e20, e21, -⟩ := idx_facts t
  refine congrArg _ (funext fun a => Fin.ext ?_)
  match a with
  | ⟨0, _⟩ => show win3_2.index t (0 : Fin 2) * 128 + 1 * i.val = i.val; omega
  | ⟨1, _⟩ => show win3_2.index t (1 : Fin 2) * 128 + 1 * j.val = j.val; omega

/-- What point `t` writes back is block `t` of the stage of the arrays the region found. -/
theorem flushed_eq (c : Dev nD) (t : Fin cfg3.N) :
    (dat3 V c).flushed 3 t = ((cfg3.win 3).blk t).view.read (Elt Ideal)
      (updRows (V c main_v71) (V c main_v0_0) (V c main_arg7)) := by
  show (cfg3.win 3).cut (grid3.coords t) ((dat3 V c).after 3 t) = _
  rw [after3_3]
  unfold out3_3
  rw [View.canon_unit_zero hz]
  simp only [View.ld_unit_zero (S := S4000x128) hz, View.ld_unit_zero (S := S128x128) hz]
  funext y
  obtain ⟨p, q, rfl⟩ : ∃ (p : Fin 4000) (q : Fin 128), y = ix2 p q := ⟨y 0, y 1, eq_ix2 y⟩
  show k3_pay1 (F := Ideal) (iblk3 V c 0 t) (iblk3 V c 2 t) (iblk3 V c 1 t) (ix2 p q)
    = updRows (V c main_v71) (V c main_v0_0) (V c main_arg7) (((cfg3.win 3).blk t).view.emb (ix2 p q))
  have hemb : ((cfg3.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win3_3.index t (0 : Fin 2) * 4000 + 1 * p.val = t.val * 4000 + p.val; omega
    | ⟨1, _⟩ => show win3_3.index t (1 : Fin 2) * 128 + 1 * q.val = q.val; omega
  rw [hemb, updRows_ix2]
  refine (pay_apply _ _ _ p q).trans ?_
  simp only [blk0 V c t p, blk1 V c t p, blk2 V c t]

/-- An index is in point `t`'s block iff each coordinate is in the block's range on its axis. -/
theorem mem_blk (t : Fin cfg3.N) (i : S400000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v72).slice (win3_3.rect t)).set ↔ _
  rw [View.set_slice_whole, Rect.mem_set_unit]
  exact Iff.rfl

/-- Row `r` is in the block of the point `r / 4000`: the hundred blocks tile the array. -/
theorem cover (i : S400000x128.Idx) :
    ∃ t : Fin cfg3.N, (cfg3.win 3).flush t = true ∧ i ∈ ((cfg3.win 3).blk t).view.set := by
  have hi0 : (i 0).val < 400000 := (i 0).isLt
  have hi1 : (i 1).val < 128 := (i 1).isLt
  have hN : cfg3.N = 100 := N_3
  have hlt : (i 0).val / 4000 < cfg3.N := by rw [hN]; omega
  refine ⟨⟨(i 0).val / 4000, hlt⟩, flush3_3 _, ?_⟩
  rw [mem_blk]
  obtain ⟨-, -, -, -, -, -, e30, e31⟩ := idx_facts ⟨(i 0).val / 4000, hlt⟩
  intro a
  match a with
  | ⟨0, _⟩ =>
    show win3_3.index ⟨(i 0).val / 4000, hlt⟩ (0 : Fin 2) * 4000 ≤ (i 0).val
      ∧ (i 0).val < win3_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win3_3.index ⟨(i 0).val / 4000, hlt⟩ (1 : Fin 2) * 128 ≤ (i 1).val
      ∧ (i 1).val < win3_3.index ⟨(i 0).val / 4000, hlt⟩ (1 : Fin 2) * 128 + 128
    omega

/-- The message array after the region: the update stage of the arrays the region found. -/
theorem final (c : Dev nD) :
    (dat3 V c).arrAt 3 cfg3.N = updRows (V c main_v71) (V c main_v0_0) (V c main_arg7) :=
  (dat3 V c).arrAt_eq_of_cover 3 _ (fun t _ => flushed_eq V c t) cover

end Cert.KernelIdeal.Upd3

end
-- ==== Proof.Upd4.lean ====
/-
  Message update 4 of the network, as the kernel computes it block by block: every grid point `t` reads rows
  `[4000 t, 4000 t + 4000)` of the neighbourhood difference and of the input message and the whole weight matrix, and
  writes back the same rows of `max (Inp + D · w) 0`. Entry `(r, q)` of that stage depends on row `r` of `D` and of
  `Inp` only, so the block written at `t` is the restriction of the whole-array stage `updRows` to those rows, and the
  hundred blocks tile the array: the array ends holding `updRows` of the arrays the region found.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Upd4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the input block's entry plus the difference block's row times the weights'
    column, floored at zero (the roundings to bfloat16 are the identity on the extended reals). -/
theorem pay_apply (x0 : Vec Ideal S4000x128 .f32) (x2 : Vec Ideal S128x128 .f32) (x1 : Vec Ideal S4000x128 .f32)
    (p : Fin 4000) (q : Fin 128) :
    k4_pay1 (F := Ideal) x0 x2 x1 (ix2 p q) = max (x1 (ix2 p q) + ∑ j : Fin 128, x0 (ix2 p j) * x2 (ix2 j q)) zr := by
  unfold k4_pay1
  exact kern_upd_apply dot_S4000x128_S128x128_S4000x128_1_0_0_1_n_n rfl x0 x2 x1 _ _ _ p q

/-- The printed index maps over the grid: the row blocks move with the grid point, the weights stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem row_lt (t : Fin cfg4.N) (p : Fin 4000) : t.val * 4000 + p.val < 400000 := by
  have hN : cfg4.N = 100 := N_4
  have ht : t.val < cfg4.N := t.isLt
  have hp : p.val < 4000 := p.isLt
  omega

/-- The difference block at `t` holds rows `4000 t + p` of the difference array. -/
theorem blk0 (c : Dev nD) (t : Fin cfg4.N) (p : Fin 4000) (j : Fin 128) :
    iblk4 V c 0 t (ix2 p j) = V c main_v95 (ix2 ⟨t.val * 4000 + p.val, row_lt t p⟩ j) := by
  show V c main_v95 (((cfg4.win 0).blk t).view.emb (ix2 p j)) = _
  obtain ⟨e00, e01, -⟩ := idx_facts t
  refine congrArg _ (funext fun a => Fin.ext ?_)
  match a with
  | ⟨0, _⟩ => show win4_0.index t (0 : Fin 2) * 4000 + 1 * p.val = t.val * 4000 + p.val; omega
  | ⟨1, _⟩ => show win4_0.index t (1 : Fin 2) * 128 + 1 * j.val = j.val; omega

/-- The input-message block at `t` holds the same rows of the input message. -/
theorem blk1 (c : Dev nD) (t : Fin cfg4.N) (p : Fin 4000) (j : Fin 128) :
    iblk4 V c 1 t (ix2 p j) = V c main_v0_0 (ix2 ⟨t.val * 4000 + p.val, row_lt t p⟩ j) := by
  show V c main_v0_0 (((cfg4.win 1).blk t).view.emb (ix2 p j)) = _
  obtain ⟨-, -, e10, e11, -⟩ := idx_facts t
  refine congrArg _ (funext fun a => Fin.ext ?_)
  match a with
  | ⟨0, _⟩ => show win4_1.index t (0 : Fin 2) * 4000 + 1 * p.val = t.val * 4000 + p.val; omega
  | ⟨1, _⟩ => show win4_1.index t (1 : Fin 2) * 128 + 1 * j.val = j.val; omega

/-- The weights' block is the whole weight matrix at every point. -/
theorem blk2 (c : Dev nD) (t : Fin cfg4.N) (i : Fin 128) (j : Fin 128) :
    iblk4 V c 2 t (ix2 i j) = V c main_arg7 (ix2 i j) := by
  show V c main_arg7 (((cfg4.win 2).blk t).view.emb (ix2 i j)) = _
  obtain ⟨-, -, -, -, e20, e21, -⟩ := idx_facts t
  refine congrArg _ (funext fun a => Fin.ext ?_)
  match a with
  | ⟨0, _⟩ => show win4_2.index t (0 : Fin 2) * 128 + 1 * i.val = i.val; omega
  | ⟨1, _⟩ => show win4_2.index t (1 : Fin 2) * 128 + 1 * j.val = j.val; omega

/-- What point `t` writes back is block `t` of the stage of the arrays the region found. -/
theorem flushed_eq (c : Dev nD) (t : Fin cfg4.N) :
    (dat4 V c).flushed 3 t = ((cfg4.win 3).blk t).view.read (Elt Ideal)
      (updRows (V c main_v95) (V c main_v0_0) (V c main_arg7)) := by
  show (cfg4.win 3).cut (grid4.coords t) ((dat4 V c).after 3 t) = _
  rw [after4_3]
  unfold out4_3
  rw [View.canon_unit_zero hz]
  simp only [View.ld_unit_zero (S := S4000x128) hz, View.ld_unit_zero (S := S128x128) hz]
  funext y
  obtain ⟨p, q, rfl⟩ : ∃ (p : Fin 4000) (q : Fin 128), y = ix2 p q := ⟨y 0, y 1, eq_ix2 y⟩
  show k4_pay1 (F := Ideal) (iblk4 V c 0 t) (iblk4 V c 2 t) (iblk4 V c 1 t) (ix2 p q)
    = updRows (V c main_v95) (V c main_v0_0) (V c main_arg7) (((cfg4.win 3).blk t).view.emb (ix2 p q))
  have hemb : ((cfg4.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win4_3.index t (0 : Fin 2) * 4000 + 1 * p.val = t.val * 4000 + p.val; omega
    | ⟨1, _⟩ => show win4_3.index t (1 : Fin 2) * 128 + 1 * q.val = q.val; omega
  rw [hemb, updRows_ix2]
  refine (pay_apply _ _ _ p q).trans ?_
  simp only [blk0 V c t p, blk1 V c t p, blk2 V c t]

/-- An index is in point `t`'s block iff each coordinate is in the block's range on its axis. -/
theorem mem_blk (t : Fin cfg4.N) (i : S400000x128.Idx) :
    i ∈ ((cfg4.win 3).blk t).view.set ↔ ∀ a : Fin 2, win4_3.index t a * S4000x128.size a ≤ (i a).val
      ∧ (i a).val < win4_3.index t a * S4000x128.size a + S4000x128.size a := by
  show i ∈ ((View.whole main_v96).slice (win4_3.rect t)).set ↔ _
  rw [View.set_slice_whole, Rect.mem_set_unit]
  exact Iff.rfl

/-- Row `r` is in the block of the point `r / 4000`: the hundred blocks tile the array. -/
theorem cover (i : S400000x128.Idx) :
    ∃ t : Fin cfg4.N, (cfg4.win 3).flush t = true ∧ i ∈ ((cfg4.win 3).blk t).view.set := by
  have hi0 : (i 0).val < 400000 := (i 0).isLt
  have hi1 : (i 1).val < 128 := (i 1).isLt
  have hN : cfg4.N = 100 := N_4
  have hlt : (i 0).val / 4000 < cfg4.N := by rw [hN]; omega
  refine ⟨⟨(i 0).val / 4000, hlt⟩, flush4_3 _, ?_⟩
  rw [mem_blk]
  obtain ⟨-, -, -, -, -, -, e30, e31⟩ := idx_facts ⟨(i 0).val / 4000, hlt⟩
  intro a
  match a with
  | ⟨0, _⟩ =>
    show win4_3.index ⟨(i 0).val / 4000, hlt⟩ (0 : Fin 2) * 4000 ≤ (i 0).val
      ∧ (i 0).val < win4_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win4_3.index ⟨(i 0).val / 4000, hlt⟩ (1 : Fin 2) * 128 ≤ (i 1).val
      ∧ (i 1).val < win4_3.index ⟨(i 0).val / 4000, hlt⟩ (1 : Fin 2) * 128 + 128
    omega

/-- The message array after the region: the update stage of the arrays the region found. -/
theorem final (c : Dev nD) :
    (dat4 V c).arrAt 3 cfg4.N = updRows (V c main_v95) (V c main_v0_0) (V c main_arg7) :=
  (dat4 V c).arrAt_eq_of_cover 3 _ (fun t _ => flushed_eq V c t) cover

end Cert.KernelIdeal.Upd4

end
-- ==== Proof.Upd5.lean ====
/-
  Message update 5 of the network, as the kernel computes it block by block: every grid point `t` reads rows
  `[4000 t, 4000 t + 4000)` of the neighbourhood difference and of the input message and the whole weight matrix, and
  writes back the same rows of `max (Inp + D · w) 0`. Entry `(r, q)` of that stage depends on row `r` of `D` and of
  `Inp` only, so the block written at `t` is the restriction of the whole-array stage `updRows` to those rows, and the
  hundred blocks tile the array: the array ends holding `updRows` of the arrays the region found.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Upd5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the input block's entry plus the difference block's row times the weights'
    column, floored at zero (the roundings to bfloat16 are the identity on the extended reals). -/
theorem pay_apply (x0 : Vec Ideal S4000x128 .f32) (x2 : Vec Ideal S128x128 .f32) (x1 : Vec Ideal S4000x128 .f32)
    (p : Fin 4000) (q : Fin 128) :
    k5_pay1 (F := Ideal) x0 x2 x1 (ix2 p q) = max (x1 (ix2 p q) + ∑ j : Fin 128, x0 (ix2 p j) * x2 (ix2 j q)) zr := by
  unfold k5_pay1
  exact kern_upd_apply dot_S4000x128_S128x128_S4000x128_1_0_0_1_n_n rfl x0 x2 x1 _ _ _ p q

/-- The printed index maps over the grid: the row blocks move with the grid point, the weights stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem row_lt (t : Fin cfg5.N) (p : Fin 4000) : t.val * 4000 + p.val < 400000 := by
  have hN : cfg5.N = 100 := N_5
  have ht : t.val < cfg5.N := t.isLt
  have hp : p.val < 4000 := p.isLt
  omega

/-- The difference block at `t` holds rows `4000 t + p` of the difference array. -/
theorem blk0 (c : Dev nD) (t : Fin cfg5.N) (p : Fin 4000) (j : Fin 128) :
    iblk5 V c 0 t (ix2 p j) = V c main_v119 (ix2 ⟨t.val * 4000 + p.val, row_lt t p⟩ j) := by
  show V c main_v119 (((cfg5.win 0).blk t).view.emb (ix2 p j)) = _
  obtain ⟨e00, e01, -⟩ := idx_facts t
  refine congrArg _ (funext fun a => Fin.ext ?_)
  match a with
  | ⟨0, _⟩ => show win5_0.index t (0 : Fin 2) * 4000 + 1 * p.val = t.val * 4000 + p.val; omega
  | ⟨1, _⟩ => show win5_0.index t (1 : Fin 2) * 128 + 1 * j.val = j.val; omega

/-- The input-message block at `t` holds the same rows of the input message. -/
theorem blk1 (c : Dev nD) (t : Fin cfg5.N) (p : Fin 4000) (j : Fin 128) :
    iblk5 V c 1 t (ix2 p j) = V c main_v0_0 (ix2 ⟨t.val * 4000 + p.val, row_lt t p⟩ j) := by
  show V c main_v0_0 (((cfg5.win 1).blk t).view.emb (ix2 p j)) = _
  obtain ⟨-, -, e10, e11, -⟩ := idx_facts t
  refine congrArg _ (funext fun a => Fin.ext ?_)
  match a with
  | ⟨0, _⟩ => show win5_1.index t (0 : Fin 2) * 4000 + 1 * p.val = t.val * 4000 + p.val; omega
  | ⟨1, _⟩ => show win5_1.index t (1 : Fin 2) * 128 + 1 * j.val = j.val; omega

/-- The weights' block is the whole weight matrix at every point. -/
theorem blk2 (c : Dev nD) (t : Fin cfg5.N) (i : Fin 128) (j : Fin 128) :
    iblk5 V c 2 t (ix2 i j) = V c main_arg7 (ix2 i j) := by
  show V c main_arg7 (((cfg5.win 2).blk t).view.emb (ix2 i j)) = _
  obtain ⟨-, -, -, -, e20, e21, -⟩ := idx_facts t
  refine congrArg _ (funext fun a => Fin.ext ?_)
  match a with
  | ⟨0, _⟩ => show win5_2.index t (0 : Fin 2) * 128 + 1 * i.val = i.val; omega
  | ⟨1, _⟩ => show win5_2.index t (1 : Fin 2) * 128 + 1 * j.val = j.val; omega

/-- What point `t` writes back is block `t` of the stage of the arrays the region found. -/
theorem flushed_eq (c : Dev nD) (t : Fin cfg5.N) :
    (dat5 V c).flushed 3 t = ((cfg5.win 3).blk t).view.read (Elt Ideal)
      (updRows (V c main_v119) (V c main_v0_0) (V c main_arg7)) := by
  show (cfg5.win 3).cut (grid5.coords t) ((dat5 V c).after 3 t) = _
  rw [after5_3]
  unfold out5_3
  rw [View.canon_unit_zero hz]
  simp only [View.ld_unit_zero (S := S4000x128) hz, View.ld_unit_zero (S := S128x128) hz]
  funext y
  obtain ⟨p, q, rfl⟩ : ∃ (p : Fin 4000) (q : Fin 128), y = ix2 p q := ⟨y 0, y 1, eq_ix2 y⟩
  show k5_pay1 (F := Ideal) (iblk5 V c 0 t) (iblk5 V c 2 t) (iblk5 V c 1 t) (ix2 p q)
    = updRows (V c main_v119) (V c main_v0_0) (V c main_arg7) (((cfg5.win 3).blk t).view.emb (ix2 p q))
  have hemb : ((cfg5.win 3).blk t).view.emb (ix2 p q) = ix2 ⟨t.val * 4000 + p.val, row_lt t p⟩ q := by
    obtain ⟨-, -, -, -, -, -, e30, e31⟩ := idx_facts t
    funext a; apply Fin.ext
    match a with
    | ⟨0, _⟩ => show win5_3.index t (0 : Fin 2) * 4000 + 1 * p.val = t.val * 4000 + p.val; omega
    | ⟨1, _⟩ => show win5_3.index t (1 : Fin 2) * 128 + 1 * q.val = q.val; omega
  rw [hemb, updRows_ix2]
  refine (pay_apply _ _ _ p q).trans ?_
  simp only [blk0 V c t p, blk1 V c t p, blk2 V c t]

/-- An index is in point `t`'s block iff each coordinate is in the block's range on its axis. -/
theorem mem_blk (t : Fin cfg5.N) (i : S400000x128.Idx) :
    i ∈ ((cfg5.win 3).blk t).view.set ↔ ∀ a : Fin 2, win5_3.index t a * S4000x128.size a ≤ (i a).val
      ∧ (i a).val < win5_3.index t a * S4000x128.size a + S4000x128.size a := by
  show i ∈ ((View.whole main_v120).slice (win5_3.rect t)).set ↔ _
  rw [View.set_slice_whole, Rect.mem_set_unit]
  exact Iff.rfl

/-- Row `r` is in the block of the point `r / 4000`: the hundred blocks tile the array. -/
theorem cover (i : S400000x128.Idx) :
    ∃ t : Fin cfg5.N, (cfg5.win 3).flush t = true ∧ i ∈ ((cfg5.win 3).blk t).view.set := by
  have hi0 : (i 0).val < 400000 := (i 0).isLt
  have hi1 : (i 1).val < 128 := (i 1).isLt
  have hN : cfg5.N = 100 := N_5
  have hlt : (i 0).val / 4000 < cfg5.N := by rw [hN]; omega
  refine ⟨⟨(i 0).val / 4000, hlt⟩, flush5_3 _, ?_⟩
  rw [mem_blk]
  obtain ⟨-, -, -, -, -, -, e30, e31⟩ := idx_facts ⟨(i 0).val / 4000, hlt⟩
  intro a
  match a with
  | ⟨0, _⟩ =>
    show win5_3.index ⟨(i 0).val / 4000, hlt⟩ (0 : Fin 2) * 4000 ≤ (i 0).val
      ∧ (i 0).val < win5_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win5_3.index ⟨(i 0).val / 4000, hlt⟩ (1 : Fin 2) * 128 ≤ (i 1).val
      ∧ (i 1).val < win5_3.index ⟨(i 0).val / 4000, hlt⟩ (1 : Fin 2) * 128 + 128
    omega

/-- The message array after the region: the update stage of the arrays the region found. -/
theorem final (c : Dev nD) :
    (dat5 V c).arrAt 3 cfg5.N = updRows (V c main_v119) (V c main_v0_0) (V c main_arg7) :=
  (dat5 V c).arrAt_eq_of_cover 3 _ (fun t _ => flushed_eq V c t) cover

end Cert.KernelIdeal.Upd5

end
-- ==== Proof.Atom6.lean ====
/-
  The atom read-out, as the kernel computes it block by block: every grid point `t` reads rows
  `[4000 t, 4000 t + 4000)` of the atom features and of the aggregated messages, the two halves of the read-out weights
  and the bias row, and writes back the same rows of `max (FA · woa + AM · wom + b) 0`. Entry `(r, q)` depends on row
  `r` of the features and of the messages only, so each block written is the restriction of the whole-array stage
  `atomSplit` to those rows, and the fifty blocks tile the array.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Atom6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry. -/
theorem pay_apply (x0 : Vec Ideal S4000x133 .f32) (x1 : Vec Ideal S4000x128 .f32) (x2 : Vec Ideal S133x128 .f32)
    (x3 : Vec Ideal S128x128 .f32) (x4 : Vec Ideal S1x128 .f32) (p : Fin 4000) (q : Fin 128) :
    k6_pay1 (F := Ideal) x0 x1 x2 x3 x4 (ix2 p q) = atomSplit x0 x1 x2 x3 x4 (ix2 p q) := by
  unfold k6_pay1
  exact kern_atom_apply dot_S4000x133_S133x128_S4000x128_1_0_0_1_n_n rfl dot_S4000x128_S128x128_S4000x128_1_0_0_1_n_n rfl
    x0 x1 x2 x3 x4 _ _ _ _ _ _ p q

/-- The printed index maps over the grid: the row blocks move with the grid point, the weights and the bias stay. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem row_lt (t : Fin cfg6.N) (p : Fin 4000) : t.val * 4000 + p.val < 200000 := by
  have hN : cfg6.N = 50 := N_6
  have ht : t.val < cfg6.N := t.isLt
  have hp : p.val < 4000 := p.isLt
  omega

theorem blk0 (c : Dev nD) (t : Fin cfg6.N) (p : Fin 4000) (j : Fin 133) :
    iblk6 V c 0 t (ix2 p j) = V c main_arg0 (ix2 ⟨t.val * 4000 + p.val, row_lt t p⟩ j) := by
  show V c main_arg0 (((cfg6.win 0).blk t).view.emb (ix2 p j)) = _
  obtain ⟨e00, e01, -⟩ := idx_facts t
  refine congrArg _ (funext fun a => Fin.ext ?_)
  match a with
  | ⟨0, _⟩ => show win6_0.index t (0 : Fin 2) * 4000 + 1 * p.val = t.val * 4000 + p.val; omega
  | ⟨1, _⟩ => show win6_0.index t (1 : Fin 2) * 133 + 1 * j.val = j.val; omega

theorem blk1 (c : Dev nD) (t : Fin cfg6.N) (p : Fin 4000) (j : Fin 128) :
    iblk6 V c 1 t (ix2 p j) = V c main_v128 (ix2 ⟨t.val * 4000 + p.val, row_lt t p⟩ j) := by
  show V c main_v128 (((cfg6.win 1).blk t).view.emb (ix2 p j)) = _
  obtain ⟨-, -, e10, e11, -⟩ := idx_facts t
  refine congrArg _ (funext fun a => Fin.ext ?_)
  match a with
  | ⟨0, _⟩ => show win6_1.index t (0 : Fin 2) * 4000 + 1 * p.val = t.val * 4000 + p.val; omega
  | ⟨1, _⟩ => show win6_1.index t (1 : Fin 2) * 128 + 1 * j.val = j.val; omega

theorem blk2 (c : Dev nD) (t : Fin cfg6.N) (i : Fin 133) (j : Fin 128) :
    iblk6 V c 2 t (ix2 i j) = V c main_v129 (ix2 i j) := by
  show V c main_v129 (((cfg6.win 2).blk t).view.emb (ix2 i j)) = _
  obtain ⟨-, -, -, -, e20, e21, -⟩ := idx_facts t
  refine congrArg _ (funext fun a => Fin.ext ?_)
  match a with
  | ⟨0, _⟩ => show win6_2.index t (0 : Fin 2) * 133 + 1 * i.val = i.val; omega
  | ⟨1, _⟩ => show win6_2.index t (1 : Fin 2) * 128 + 1 * j.val = j.val; omega

theorem blk3 (c : Dev nD) (t : Fin cfg6.N) (i : Fin 128) (j : Fin 128) :
    iblk6 V c 3 t (ix2 i j) = V c main_v130 (ix2 i j) := by
  show V c main_v130 (((cfg6.win 3).blk t).view.emb (ix2 i j)) = _
  obtain ⟨-, -, -, -, -, -, e30, e31, -⟩ := idx_facts t
  refine congrArg _ (funext fun a => Fin.ext ?_)
  match a with
  | ⟨0, _⟩ => show win6_3.index t (0 : Fin 2) * 128 + 1 * i.val = i.val; omega
  | ⟨1, _⟩ => show win6_3.index t (1 : Fin 2) * 128 + 1 * j.val = j.val; omega

theorem blk4 (c : Dev nD) (t : Fin cfg6.N) (i : Fin 1) (j : Fin 128) :
    iblk6 V c 4 t (ix2 i j) = V c main_v131 (ix2 i j) := by
  show V c main_v131 (((cfg6.win 4).blk t).view.emb (ix2 i j)) = _
  obtain ⟨-, -, -, -, -, -, -, -, e40, e41, -⟩ := idx_facts t
  refine congrArg _ (funext fun a => Fin.ext ?_)
  match a with
  | ⟨0, _⟩ => show win6_4.index t (0 : Fin 2) * 1 + 1 * i.val = i.val; omega
  | ⟨1, _⟩ => show win6_4.index t (1 : Fin 2) * 128 + 1 * j.val = j.val; omega

/-- What point `t` writes back is block `t` of the stage of the arrays the region found. -/
theorem flushed_eq (c : Dev nD) (t : Fin cfg6.N) :
    (dat6 V c).flushed 5 t = ((cfg6.win 5).blk t).view.read (Elt Ideal)
      (atomSplit (V c main_arg0) (V c main_v128) (V c main_v129) (V c main_v130) (V c main_v131)) := by
  show (cfg6.win 5).cut (grid6.coords t) ((dat6 V c).after 5 t) = _
  rw [after6_5]
  unfold out6_5
  rw [View.canon_unit_zero hz]
  simp only [View.ld_unit_zero (S := S4000x133) hz, View.ld_unit_zero (S := S4000x128) hz, View.ld_unit_zero (S := S133x128) hz,
    View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k6_pay1 (F := Ideal) (iblk6 V c 0 t) (iblk6 V c 1 t) (iblk6 V c 2 t) (iblk6 V c 3 t) (iblk6 V c 4 t) (ix2 p q)
    = atomSplit (V c main_arg0) (V c main_v128) (V c main_v129) (V c main_v130) (V c main_v131)
        (((cfg6.win 5).blk t).view.emb (ix2 p q))
  have hemb : ((cfg6.win 5).blk t).view.emb (ix2 p q) = ix2 ⟨t.val * 4000 + p.val, row_lt t p⟩ q := by
    obtain ⟨-, -, -, -, -, -, -, -, -, -, e50, e51⟩ := idx_facts t
    funext a; apply Fin.ext
    match a with
    | ⟨0, _⟩ => show win6_5.index t (0 : Fin 2) * 4000 + 1 * p.val = t.val * 4000 + p.val; omega
    | ⟨1, _⟩ => show win6_5.index t (1 : Fin 2) * 128 + 1 * q.val = q.val; omega
  rw [hemb]
  refine (pay_apply _ _ _ _ _ p q).trans ?_
  rw [atomSplit_ix2, atomSplit_ix2, blk4 V c t 0 q]
  refine congrArg (fun s => max (s + _) zr) ?_
  refine congrArg₂ (· + ·) (Finset.sum_congr rfl fun j _ => ?_) (Finset.sum_congr rfl fun j _ => ?_)
  · rw [blk0 V c t p j, blk2 V c t j q]
  · rw [blk1 V c t p j, blk3 V c t j q]

/-- An index is in point `t`'s block iff each coordinate is in the block's range on its axis. -/
theorem mem_blk (t : Fin cfg6.N) (i : S200000x128.Idx) :
    i ∈ ((cfg6.win 5).blk t).view.set ↔ ∀ a : Fin 2, win6_5.index t a * S4000x128.size a ≤ (i a).val
      ∧ (i a).val < win6_5.index t a * S4000x128.size a + S4000x128.size a := by
  show i ∈ ((View.whole main_v132).slice (win6_5.rect t)).set ↔ _
  rw [View.set_slice_whole, Rect.mem_set_unit]
  exact Iff.rfl

/-- Row `r` is in the block of the point `r / 4000`: the blocks tile the array. -/
theorem cover (i : S200000x128.Idx) :
    ∃ t : Fin cfg6.N, (cfg6.win 5).flush t = true ∧ i ∈ ((cfg6.win 5).blk t).view.set := by
  have hi0 : (i 0).val < 200000 := (i 0).isLt
  have hi1 : (i 1).val < 128 := (i 1).isLt
  have hN : cfg6.N = 50 := N_6
  have hlt : (i 0).val / 4000 < cfg6.N := by rw [hN]; omega
  refine ⟨⟨(i 0).val / 4000, hlt⟩, flush6_5 _, ?_⟩
  rw [mem_blk]
  obtain ⟨-, -, -, -, -, -, -, -, -, -, e50, e51⟩ := idx_facts ⟨(i 0).val / 4000, hlt⟩
  intro a
  match a with
  | ⟨0, _⟩ =>
    show win6_5.index ⟨(i 0).val / 4000, hlt⟩ (0 : Fin 2) * 4000 ≤ (i 0).val
      ∧ (i 0).val < win6_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win6_5.index ⟨(i 0).val / 4000, hlt⟩ (1 : Fin 2) * 128 ≤ (i 1).val
      ∧ (i 1).val < win6_5.index ⟨(i 0).val / 4000, hlt⟩ (1 : Fin 2) * 128 + 128
    omega

/-- The atom representations after the region: the read-out stage of the arrays the region found. -/
theorem final (c : Dev nD) :
    (dat6 V c).arrAt 5 cfg6.N = atomSplit (V c main_arg0) (V c main_v128) (V c main_v129) (V c main_v130) (V c main_v131) :=
  (dat6 V c).arrAt_eq_of_cover 5 _ (fun t _ => flushed_eq V c t) cover

end Cert.KernelIdeal.Atom6

end
-- ==== Proof.Ffn7.lean ====
/-
  The prediction head, as the kernel computes it block by block: every grid point `t` reads rows
  `[2000 t, 2000 t + 2000)` of the molecule vectors, both weight matrices and both bias rows, and writes back the same
  rows of the two-layer perceptron's output. Entry `(r, q)` depends on row `r` of the molecule vectors only, so each
  block written is the restriction of the whole-array stage `mlpSplit` to those rows, and the five blocks tile the array.
-/
import proofs.«152408_j47510928228864_1_alg».proof.Proof.Gen.KernelIdeal.Frame
import proofs.«152408_j47510928228864_1_alg».proof.Proof.LibMpnStages
import Idealize.ShloMosaic.Lib.Pipeline.Value
import Idealize.ShloMosaic.Lib.ValueIdx

set_option maxRecDepth 16384

noncomputable section

namespace Cert.KernelIdeal.Ffn7

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mpn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry. -/
theorem pay_apply (x0 : Vec Ideal S2000x128 .f32) (x1 : Vec Ideal S128x256 .f32) (x2 : Vec Ideal S1x256 .f32)
    (x3 : Vec Ideal S256x1 .f32) (x4 : Vec Ideal S1x1 .f32) (p : Fin 2000) (q : Fin 1) :
    k7_pay1 (F := Ideal) x0 x1 x2 x3 x4 (ix2 p q) = mlpSplit x0 x1 x2 x3 x4 (ix2 p q) := by
  unfold k7_pay1
  exact kern_mlp_apply dot_S2000x128_S128x256_S2000x256_1_0_0_1_n_n rfl dot_S2000x256_S256x1_S2000x1_1_0_0_1_n_n rfl
    x0 x1 x2 x3 x4 _ _ _ _ _ _ p q

/-- The printed index maps over the grid: the row blocks move with the grid point, the weights and the biases stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem row_lt (t : Fin cfg7.N) (p : Fin 2000) : t.val * 2000 + p.val < 10000 := by
  have hN : cfg7.N = 5 := N_7
  have ht : t.val < cfg7.N := t.isLt
  have hp : p.val < 2000 := p.isLt
  omega

theorem blk0 (c : Dev nD) (t : Fin cfg7.N) (p : Fin 2000) (j : Fin 128) :
    iblk7 V c 0 t (ix2 p j) = V c main_v148 (ix2 ⟨t.val * 2000 + p.val, row_lt t p⟩ j) := by
  show V c main_v148 (((cfg7.win 0).blk t).view.emb (ix2 p j)) = _
  obtain ⟨e00, e01, -⟩ := idx_facts t
  refine congrArg _ (funext fun a => Fin.ext ?_)
  match a with
  | ⟨0, _⟩ => show win7_0.index t (0 : Fin 2) * 2000 + 1 * p.val = t.val * 2000 + p.val; omega
  | ⟨1, _⟩ => show win7_0.index t (1 : Fin 2) * 128 + 1 * j.val = j.val; omega

theorem blk1 (c : Dev nD) (t : Fin cfg7.N) (i : Fin 128) (j : Fin 256) :
    iblk7 V c 1 t (ix2 i j) = V c main_arg10 (ix2 i j) := by
  show V c main_arg10 (((cfg7.win 1).blk t).view.emb (ix2 i j)) = _
  obtain ⟨-, -, e10, e11, -⟩ := idx_facts t
  refine congrArg _ (funext fun a => Fin.ext ?_)
  match a with
  | ⟨0, _⟩ => show win7_1.index t (0 : Fin 2) * 128 + 1 * i.val = i.val; omega
  | ⟨1, _⟩ => show win7_1.index t (1 : Fin 2) * 256 + 1 * j.val = j.val; omega

theorem blk2 (c : Dev nD) (t : Fin cfg7.N) (i : Fin 1) (j : Fin 256) :
    iblk7 V c 2 t (ix2 i j) = V c main_v149 (ix2 i j) := by
  show V c main_v149 (((cfg7.win 2).blk t).view.emb (ix2 i j)) = _
  obtain ⟨-, -, -, -, e20, e21, -⟩ := idx_facts t
  refine congrArg _ (funext fun a => Fin.ext ?_)
  match a with
  | ⟨0, _⟩ => show win7_2.index t (0 : Fin 2) * 1 + 1 * i.val = i.val; omega
  | ⟨1, _⟩ => show win7_2.index t (1 : Fin 2) * 256 + 1 * j.val = j.val; omega

theorem blk3 (c : Dev nD) (t : Fin cfg7.N) (i : Fin 256) (j : Fin 1) :
    iblk7 V c 3 t (ix2 i j) = V c main_arg12 (ix2 i j) := by
  show V c main_arg12 (((cfg7.win 3).blk t).view.emb (ix2 i j)) = _
  obtain ⟨-, -, -, -, -, -, e30, e31, -⟩ := idx_facts t
  refine congrArg _ (funext fun a => Fin.ext ?_)
  match a with
  | ⟨0, _⟩ => show win7_3.index t (0 : Fin 2) * 256 + 1 * i.val = i.val; omega
  | ⟨1, _⟩ => show win7_3.index t (1 : Fin 2) * 1 + 1 * j.val = j.val; omega

theorem blk4 (c : Dev nD) (t : Fin cfg7.N) (i : Fin 1) (j : Fin 1) :
    iblk7 V c 4 t (ix2 i j) = V c main_v150 (ix2 i j) := by
  show V c main_v150 (((cfg7.win 4).blk t).view.emb (ix2 i j)) = _
  obtain ⟨-, -, -, -, -, -, -, -, e40, e41, -⟩ := idx_facts t
  refine congrArg _ (funext fun a => Fin.ext ?_)
  match a with
  | ⟨0, _⟩ => show win7_4.index t (0 : Fin 2) * 1 + 1 * i.val = i.val; omega
  | ⟨1, _⟩ => show win7_4.index t (1 : Fin 2) * 1 + 1 * j.val = j.val; omega

/-- What point `t` writes back is block `t` of the stage of the arrays the region found. -/
theorem flushed_eq (c : Dev nD) (t : Fin cfg7.N) :
    (dat7 V c).flushed 5 t = ((cfg7.win 5).blk t).view.read (Elt Ideal)
      (mlpSplit (V c main_v148) (V c main_arg10) (V c main_v149) (V c main_arg12) (V c main_v150)) := by
  show (cfg7.win 5).cut (grid7.coords t) ((dat7 V c).after 5 t) = _
  rw [after7_5]
  unfold out7_5
  rw [View.canon_unit_zero hz]
  simp only [View.ld_unit_zero (S := S2000x128) hz, View.ld_unit_zero (S := S128x256) hz, View.ld_unit_zero (S := S1x256) hz,
    View.ld_unit_zero (S := S256x1) hz, View.ld_unit_zero (S := S1x1) hz]
  funext y
  obtain ⟨p, q, rfl⟩ : ∃ (p : Fin 2000) (q : Fin 1), y = ix2 p q := ⟨y 0, y 1, eq_ix2 y⟩
  show k7_pay1 (F := Ideal) (iblk7 V c 0 t) (iblk7 V c 1 t) (iblk7 V c 2 t) (iblk7 V c 3 t) (iblk7 V c 4 t) (ix2 p q)
    = mlpSplit (V c main_v148) (V c main_arg10) (V c main_v149) (V c main_arg12) (V c main_v150)
        (((cfg7.win 5).blk t).view.emb (ix2 p q))
  have hemb : ((cfg7.win 5).blk t).view.emb (ix2 p q) = ix2 ⟨t.val * 2000 + p.val, row_lt t p⟩ q := by
    obtain ⟨-, -, -, -, -, -, -, -, -, -, e50, e51⟩ := idx_facts t
    funext a; apply Fin.ext
    match a with
    | ⟨0, _⟩ => show win7_5.index t (0 : Fin 2) * 2000 + 1 * p.val = t.val * 2000 + p.val; omega
    | ⟨1, _⟩ => show win7_5.index t (1 : Fin 2) * 1 + 1 * q.val = q.val; omega
  rw [hemb]
  refine (pay_apply _ _ _ _ _ p q).trans ?_
  rw [mlpSplit_ix2, mlpSplit_ix2, blk4 V c t 0 q]
  refine congrArg (fun s => s + _) (Finset.sum_congr rfl fun k _ => ?_)
  rw [blk2 V c t 0 k, blk3 V c t k q]
  refine congrArg (fun s => max (s + _) zr * _) (Finset.sum_congr rfl fun j _ => ?_)
  rw [blk0 V c t p j, blk1 V c t j k]

/-- An index is in point `t`'s block iff each coordinate is in the block's range on its axis. -/
theorem mem_blk (t : Fin cfg7.N) (i : S10000x1.Idx) :
    i ∈ ((cfg7.win 5).blk t).view.set ↔ ∀ a : Fin 2, win7_5.index t a * S2000x1.size a ≤ (i a).val
      ∧ (i a).val < win7_5.index t a * S2000x1.size a + S2000x1.size a := by
  show i ∈ ((View.whole main_v151).slice (win7_5.rect t)).set ↔ _
  rw [View.set_slice_whole, Rect.mem_set_unit]
  exact Iff.rfl

/-- Row `r` is in the block of the point `r / 2000`: the blocks tile the array. -/
theorem cover (i : S10000x1.Idx) :
    ∃ t : Fin cfg7.N, (cfg7.win 5).flush t = true ∧ i ∈ ((cfg7.win 5).blk t).view.set := by
  have hi0 : (i 0).val < 10000 := (i 0).isLt
  have hi1 : (i 1).val < 1 := (i 1).isLt
  have hN : cfg7.N = 5 := N_7
  have hlt : (i 0).val / 2000 < cfg7.N := by rw [hN]; omega
  refine ⟨⟨(i 0).val / 2000, hlt⟩, flush7_5 _, ?_⟩
  rw [mem_blk]
  obtain ⟨-, -, -, -, -, -, -, -, -, -, e50, e51⟩ := idx_facts ⟨(i 0).val / 2000, hlt⟩
  intro a
  match a with
  | ⟨0, _⟩ =>
    show win7_5.index ⟨(i 0).val / 2000, hlt⟩ (0 : Fin 2) * 2000 ≤ (i 0).val
      ∧ (i 0).val < win7_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win7_5.index ⟨(i 0).val / 2000, hlt⟩ (1 : Fin 2) * 1 ≤ (i 1).val
      ∧ (i 1).val < win7_5.index ⟨(i 0).val / 2000, hlt⟩ (1 : Fin 2) * 1 + 1
    omega

/-- The predictions after the region: the perceptron of the arrays the region found. -/
theorem final (c : Dev nD) :
    (dat7 V c).arrAt 5 cfg7.N = mlpSplit (V c main_v148) (V c main_arg10) (V c main_v149) (V c main_arg12) (V c main_v150) :=
  (dat7 V c).arrAt_eq_of_cover 5 _ (fun t _ => flushed_eq V c t) cover

end Cert.KernelIdeal.Ffn7

end
-- ==== Proof.Host1.lean ====
/-
  The stretch of host operations before message update 1, read as a function of the contents it finds: the
  normalisation of the three index arrays, the gather of the current message at each atom's four bonds and its sum,
  the gather of that sum at each bond's source atom, the gather of the message at the reverse bond, and the
  subtraction — the same operations, on the same operands, as the reference's `diffOf`.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo

-- the fold over the stretch's operations is evaluated symbolically, one dependent cast per operation
set_option maxHeartbeats 4000000 in
/-- The stretch leaves in its last buffer the neighbourhood difference of the message it found, formed with the index
    arguments it found. -/
theorem diff (W : Valuation τ sig (Elt Ideal)) :
    StableHlo.after hostOps1 W (Proc.devRef .tc main_v23)
      = Cert.ReferenceIdeal.Stg.diffOf (W (Proc.devRef .tc main_v0_1)) (W (Proc.devRef .tc main_arg2))
          (W (Proc.devRef .tc main_arg3)) (W (Proc.devRef .tc main_arg4)) := by
  after_results
  all_goals rfl

end Cert.KernelIdeal.Host1

end
-- ==== Proof.Host2.lean ====
/-
  The stretch of host operations before message update 2, read as a function of the contents it finds: the
  normalisation of the three index arrays, the gather of the current message at each atom's four bonds and its sum,
  the gather of that sum at each bond's source atom, the gather of the message at the reverse bond, and the
  subtraction — the same operations, on the same operands, as the reference's `diffOf`.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host2

open Cert.KernelIdeal Cert.KernelIdeal.Gen
open Idealize.ShloMosaic Idealize.ShloMosaic.TcCoe Idealize.SL.Sem Idealize.ShloMosaic.StableHlo

-- the fold over the stretch's operations is evaluated symbolically, one dependent cast per operation
set_option maxHeartbeats 4000000 in
/-- The stretch leaves in its last buffer the neighbourhood difference of the message it found, formed with the index
    arguments it found. -/
theorem diff (W : Valuation τ sig (Elt Ideal)) :
    StableHlo.after hostOps2 W (Proc.devRef .tc main_v47)
      = Cert.ReferenceIdeal.Stg.diffOf (W (Proc.devRef .tc main_v24)) (W (Proc.devRef .tc main_arg2))
          (W (Proc.devRef .tc main_arg3)) (W (Proc.devRef .tc main_arg4)) := by
  after_results
  all_goals rfl

end Cert.KernelIdeal.Host2

end
-- ==== Proof.Host3.lean ====
/-
  The stretch of host operations before message update 3, read as a function of the contents it finds: the
  normalisation of the three index arrays, the gather of the current message at each atom's four bonds and its sum,
  the gather of that sum at each bond's source atom, the gather of the message at the reverse bond, and the
  subtraction — the same operations, on the same operands, as the reference's `diffOf`.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host3

open Cert.KernelIdeal Cert.KernelIdeal.Gen
open Idealize.ShloMosaic Idealize.ShloMosaic.TcCoe Idealize.SL.Sem Idealize.ShloMosaic.StableHlo

-- the fold over the stretch's operations is evaluated symbolically, one dependent cast per operation
set_option maxHeartbeats 4000000 in
/-- The stretch leaves in its last buffer the neighbourhood difference of the message it found, formed with the index
    arguments it found. -/
theorem diff (W : Valuation τ sig (Elt Ideal)) :
    StableHlo.after hostOps3 W (Proc.devRef .tc main_v71)
      = Cert.ReferenceIdeal.Stg.diffOf (W (Proc.devRef .tc main_v48)) (W (Proc.devRef .tc main_arg2))
          (W (Proc.devRef .tc main_arg3)) (W (Proc.devRef .tc main_arg4)) := by
  after_results
  all_goals rfl

end Cert.KernelIdeal.Host3

end
-- ==== Proof.Host4.lean ====
/-
  The stretch of host operations before message update 4, read as a function of the contents it finds: the
  normalisation of the three index arrays, the gather of the current message at each atom's four bonds and its sum,
  the gather of that sum at each bond's source atom, the gather of the message at the reverse bond, and the
  subtraction — the same operations, on the same operands, as the reference's `diffOf`.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host4

open Cert.KernelIdeal Cert.KernelIdeal.Gen
open Idealize.ShloMosaic Idealize.ShloMosaic.TcCoe Idealize.SL.Sem Idealize.ShloMosaic.StableHlo

-- the fold over the stretch's operations is evaluated symbolically, one dependent cast per operation
set_option maxHeartbeats 4000000 in
/-- The stretch leaves in its last buffer the neighbourhood difference of the message it found, formed with the index
    arguments it found. -/
theorem diff (W : Valuation τ sig (Elt Ideal)) :
    StableHlo.after hostOps4 W (Proc.devRef .tc main_v95)
      = Cert.ReferenceIdeal.Stg.diffOf (W (Proc.devRef .tc main_v72)) (W (Proc.devRef .tc main_arg2))
          (W (Proc.devRef .tc main_arg3)) (W (Proc.devRef .tc main_arg4)) := by
  after_results
  all_goals rfl

end Cert.KernelIdeal.Host4

end
-- ==== Proof.Host5.lean ====
/-
  The stretch of host operations before message update 5, read as a function of the contents it finds: the
  normalisation of the three index arrays, the gather of the current message at each atom's four bonds and its sum,
  the gather of that sum at each bond's source atom, the gather of the message at the reverse bond, and the
  subtraction — the same operations, on the same operands, as the reference's `diffOf`.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host5

open Cert.KernelIdeal Cert.KernelIdeal.Gen
open Idealize.ShloMosaic Idealize.ShloMosaic.TcCoe Idealize.SL.Sem Idealize.ShloMosaic.StableHlo

-- the fold over the stretch's operations is evaluated symbolically, one dependent cast per operation
set_option maxHeartbeats 4000000 in
/-- The stretch leaves in its last buffer the neighbourhood difference of the message it found, formed with the index
    arguments it found. -/
theorem diff (W : Valuation τ sig (Elt Ideal)) :
    StableHlo.after hostOps5 W (Proc.devRef .tc main_v119)
      = Cert.ReferenceIdeal.Stg.diffOf (W (Proc.devRef .tc main_v96)) (W (Proc.devRef .tc main_arg2))
          (W (Proc.devRef .tc main_arg3)) (W (Proc.devRef .tc main_arg4)) := by
  after_results
  all_goals rfl

end Cert.KernelIdeal.Host5

end
-- ==== Proof.Host6.lean ====
/-
  The stretch of host operations before the atom read-out, read as a function of the contents it finds: the sixth
  message aggregated at the atoms (the reference's `aggOf`), the two row ranges of the read-out weights, and the
  read-out bias laid out as a row.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host6

open Cert.KernelIdeal Cert.KernelIdeal.Gen
open Idealize.ShloMosaic Idealize.ShloMosaic.TcCoe Idealize.SL.Sem Idealize.ShloMosaic.StableHlo

set_option maxHeartbeats 4000000 in
theorem agg (W : Valuation τ sig (Elt Ideal)) :
    StableHlo.after hostOps6 W (Proc.devRef .tc main_v128)
      = Cert.ReferenceIdeal.Stg.aggOf (W (Proc.devRef .tc main_v120)) (W (Proc.devRef .tc main_arg2)) := by
  after_results
  all_goals rfl

set_option maxHeartbeats 4000000 in
theorem woa (W : Valuation τ sig (Elt Ideal)) :
    StableHlo.after hostOps6 W (Proc.devRef .tc main_v129)
      = extractStridedSlice S133x128 ![0, 0] (W (Proc.devRef .tc main_arg8)) slices_S261x128_S133x128_0_0 := by
  after_results
  all_goals rfl

set_option maxHeartbeats 4000000 in
theorem wom (W : Valuation τ sig (Elt Ideal)) :
    StableHlo.after hostOps6 W (Proc.devRef .tc main_v130)
      = extractStridedSlice S128x128 ![133, 0] (W (Proc.devRef .tc main_arg8)) slices_S261x128_S128x128_133_0 := by
  after_results
  all_goals rfl

set_option maxHeartbeats 4000000 in
theorem brow (W : Valuation τ sig (Elt Ideal)) :
    StableHlo.after hostOps6 W (Proc.devRef .tc main_v131)
      = shapeCast S1x128 (W (Proc.devRef .tc main_arg9)) shapeCasts_S128_S1x128 := by
  after_results
  all_goals rfl

end Cert.KernelIdeal.Host6

end
-- ==== Proof.Host7.lean ====
/-
  The host operations between the atom read-out and the prediction head, read as functions of the contents they
  find: the per-molecule mean of the atom representations with zero for an empty molecule (the reference's `poolOf`),
  and the two biases of the head laid out as rows; the molecule vectors are left alone by the last stretch.
-/
import proofs.«152408_j47510928228864_1_alg».proof.Proof.Gen.KernelIdeal.Frame
import proofs.«152408_j47510928228864_1_alg».proof.Proof.RefStages
import Idealize.ShloMosaic.Lib.StableHlo.Run

set_option maxRecDepth 16384

noncomputable section

namespace Cert.KernelIdeal.Host7

open Cert.KernelIdeal Cert.KernelIdeal.Gen
open Idealize.ShloMosaic Idealize.ShloMosaic.TcCoe Idealize.SL.Sem Idealize.ShloMosaic.StableHlo

-- the two sides meet after unfolding every staged definition of the reference's reading: a deep, narrow comparison
set_option maxRecDepth 400000 in
set_option maxHeartbeats 8000000 in
theorem pool (W : Valuation τ sig (Elt Ideal)) :
    StableHlo.after hostOps7_1 (StableHlo.after hostOps7 W) (Proc.devRef .tc main_v148)
      = Cert.ReferenceIdeal.Stg.poolOf (W (Proc.devRef .tc main_v132)) (W (Proc.devRef .tc main_arg5)) := by
  after_results_simp
  all_goals rfl

set_option maxHeartbeats 4000000 in
theorem mv (W : Valuation τ sig (Elt Ideal)) :
    StableHlo.after hostOps7_2 W (Proc.devRef .tc main_v148) = W (Proc.devRef .tc main_v148) := by
  after_results
  all_goals rfl

set_option maxHeartbeats 4000000 in
theorem b1row (W : Valuation τ sig (Elt Ideal)) :
    StableHlo.after hostOps7_2 W (Proc.devRef .tc main_v149)
      = shapeCast S1x256 (W (Proc.devRef .tc main_arg11)) shapeCasts_S256_S1x256 := by
  after_results
  all_goals rfl

set_option maxHeartbeats 4000000 in
theorem b2row (W : Valuation τ sig (Elt Ideal)) :
    StableHlo.after hostOps7_2 W (Proc.devRef .tc main_v150)
      = shapeCast S1x1 (W (Proc.devRef .tc main_arg13)) shapeCasts_S1_S1x1 := by
  after_results
  all_goals rfl

end Cert.KernelIdeal.Host7

end
-- ==== Proof.Chain.lean ====
/-
  The kernel program's result as a function of its arguments. The program is a fold of segments: the first region
  leaves the input message and the first message; then five times a stretch of host operations forms the neighbourhood
  difference of the current message and a region updates the message; a last stretch aggregates the sixth message at the
  atoms and cuts the read-out weights; a region reads out the atom representations; host operations pool them per
  molecule; the last region applies the prediction head. Each region's array is the stage of the arrays it found
  (the region modules), each stretch's result is the printed operations of what it found, and the arguments and the
  input message are where they were left (Kept.lean). Composed, the result buffer ends holding the network of the
  arguments — the same function the reference's staged run is (RefStages.lean).
-/
import proofs.«152408_j47510928228864_1_alg».proof.Proof.Gen.KernelIdeal.Frame
import proofs.«152408_j47510928228864_1_alg».proof.Proof.Kept
import proofs.«152408_j47510928228864_1_alg».proof.Proof.Inp0
import proofs.«152408_j47510928228864_1_alg».proof.Proof.Upd1
import proofs.«152408_j47510928228864_1_alg».proof.Proof.Upd2
import proofs.«152408_j47510928228864_1_alg».proof.Proof.Upd3
import proofs.«152408_j47510928228864_1_alg».proof.Proof.Upd4
import proofs.«152408_j47510928228864_1_alg».proof.Proof.Upd5
import proofs.«152408_j47510928228864_1_alg».proof.Proof.Atom6
import proofs.«152408_j47510928228864_1_alg».proof.Proof.Ffn7
import proofs.«152408_j47510928228864_1_alg».proof.Proof.RefStages
import proofs.«152408_j47510928228864_1_alg».proof.Proof.Host1
import proofs.«152408_j47510928228864_1_alg».proof.Proof.Host2
import proofs.«152408_j47510928228864_1_alg».proof.Proof.Host3
import proofs.«152408_j47510928228864_1_alg».proof.Proof.Host4
import proofs.«152408_j47510928228864_1_alg».proof.Proof.Host5
import proofs.«152408_j47510928228864_1_alg».proof.Proof.Host6
import proofs.«152408_j47510928228864_1_alg».proof.Proof.Host7
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.Mpn Cert.LibMlp

/-! ## The fold, boundary by boundary -/

variable (m : (ℓ : Loc nD τ sig) → Buf (Elt Ideal) ℓ) (ρ : Dev nD → PrngReg) (c : Dev nD)

/-- The input message, as the first region leaves it. -/
theorem inp1 : W1 m ρ c (Proc.devRef .tc main_v0_0) = linRows (m ((c : Thread nD τ).loc main_arg1)) (m ((c : Thread nD τ).loc main_arg6)) :=
  (W1_arr m ρ c 2).trans (Inp0.final2 (V0 m ρ) c)

/-- The first message. -/
theorem msg0 : W1 m ρ c (Proc.devRef .tc main_v0_1) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 0 :=
  (W1_arr m ρ c 3).trans (Inp0.final3 (V0 m ρ) c)

/-- Message 1: the update of the neighbourhood difference of message 0. -/
theorem msg1 : W3 m ρ c (Proc.devRef .tc main_v24) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 1 := by
  refine (W3_arr m ρ c 3).trans ((Upd1.final (V2 m ρ) c).trans ?_)
  show updRows (StableHlo.after hostOps1 (W1 m ρ c) (Proc.devRef .tc main_v23))
      (W2 m ρ c (Proc.devRef .tc main_v0_0)) (W2 m ρ c (Proc.devRef .tc main_arg7)) = _
  rw [Host1.diff, msg0 m ρ c,
    (Kept.arg1 m ρ c main_arg2 (by decide)), (Kept.arg1 m ρ c main_arg3 (by decide)), (Kept.arg1 m ρ c main_arg4 (by decide)),
    (Kept.at2 m ρ c main_v0_0 (by decide)).trans (inp1 m ρ c), ((Kept.at2 m ρ c main_arg7 (by decide)).trans (Kept.arg1 m ρ c main_arg7 (by decide)))]
  rfl

/-- Message 2: the update of the neighbourhood difference of message 1. -/
theorem msg2 : W5 m ρ c (Proc.devRef .tc main_v48) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 2 := by
  refine (W5_arr m ρ c 3).trans ((Upd2.final (V4 m ρ) c).trans ?_)
  show updRows (StableHlo.after hostOps2 (W3 m ρ c) (Proc.devRef .tc main_v47))
      (W4 m ρ c (Proc.devRef .tc main_v0_0)) (W4 m ρ c (Proc.devRef .tc main_arg7)) = _
  rw [Host2.diff, msg1 m ρ c,
    ((Kept.at3 m ρ c main_arg2 (by decide)).trans (Kept.arg1 m ρ c main_arg2 (by decide))), ((Kept.at3 m ρ c main_arg3 (by decide)).trans (Kept.arg1 m ρ c main_arg3 (by decide))), ((Kept.at3 m ρ c main_arg4 (by decide)).trans (Kept.arg1 m ρ c main_arg4 (by decide))),
    (Kept.at4 m ρ c main_v0_0 (by decide)).trans (inp1 m ρ c), ((Kept.at4 m ρ c main_arg7 (by decide)).trans (Kept.arg1 m ρ c main_arg7 (by decide)))]
  rfl

/-- Message 3: the update of the neighbourhood difference of message 2. -/
theorem msg3 : W7 m ρ c (Proc.devRef .tc main_v72) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 3 := by
  refine (W7_arr m ρ c 3).trans ((Upd3.final (V6 m ρ) c).trans ?_)
  show updRows (StableHlo.after hostOps3 (W5 m ρ c) (Proc.devRef .tc main_v71))
      (W6 m ρ c (Proc.devRef .tc main_v0_0)) (W6 m ρ c (Proc.devRef .tc main_arg7)) = _
  rw [Host3.diff, msg2 m ρ c,
    ((Kept.at5 m ρ c main_arg2 (by decide)).trans (Kept.arg1 m ρ c main_arg2 (by decide))), ((Kept.at5 m ρ c main_arg3 (by decide)).trans (Kept.arg1 m ρ c main_arg3 (by decide))), ((Kept.at5 m ρ c main_arg4 (by decide)).trans (Kept.arg1 m ρ c main_arg4 (by decide))),
    (Kept.at6 m ρ c main_v0_0 (by decide)).trans (inp1 m ρ c), ((Kept.at6 m ρ c main_arg7 (by decide)).trans (Kept.arg1 m ρ c main_arg7 (by decide)))]
  rfl

/-- Message 4: the update of the neighbourhood difference of message 3. -/
theorem msg4 : W9 m ρ c (Proc.devRef .tc main_v96) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 4 := by
  refine (W9_arr m ρ c 3).trans ((Upd4.final (V8 m ρ) c).trans ?_)
  show updRows (StableHlo.after hostOps4 (W7 m ρ c) (Proc.devRef .tc main_v95))
      (W8 m ρ c (Proc.devRef .tc main_v0_0)) (W8 m ρ c (Proc.devRef .tc main_arg7)) = _
  rw [Host4.diff, msg3 m ρ c,
    ((Kept.at7 m ρ c main_arg2 (by decide)).trans (Kept.arg1 m ρ c main_arg2 (by decide))), ((Kept.at7 m ρ c main_arg3 (by decide)).trans (Kept.arg1 m ρ c main_arg3 (by decide))), ((Kept.at7 m ρ c main_arg4 (by decide)).trans (Kept.arg1 m ρ c main_arg4 (by decide))),
    (Kept.at8 m ρ c main_v0_0 (by decide)).trans (inp1 m ρ c), ((Kept.at8 m ρ c main_arg7 (by decide)).trans (Kept.arg1 m ρ c main_arg7 (by decide)))]
  rfl

/-- Message 5: the update of the neighbourhood difference of message 4. -/
theorem msg5 : W11 m ρ c (Proc.devRef .tc main_v120) = Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 5 := by
  refine (W11_arr m ρ c 3).trans ((Upd5.final (V10 m ρ) c).trans ?_)
  show updRows (StableHlo.after hostOps5 (W9 m ρ c) (Proc.devRef .tc main_v119))
      (W10 m ρ c (Proc.devRef .tc main_v0_0)) (W10 m ρ c (Proc.devRef .tc main_arg7)) = _
  rw [Host5.diff, msg4 m ρ c,
    ((Kept.at9 m ρ c main_arg2 (by decide)).trans (Kept.arg1 m ρ c main_arg2 (by decide))), ((Kept.at9 m ρ c main_arg3 (by decide)).trans (Kept.arg1 m ρ c main_arg3 (by decide))), ((Kept.at9 m ρ c main_arg4 (by decide)).trans (Kept.arg1 m ρ c main_arg4 (by decide))),
    (Kept.at10 m ρ c main_v0_0 (by decide)).trans (inp1 m ρ c), ((Kept.at10 m ρ c main_arg7 (by decide)).trans (Kept.arg1 m ρ c main_arg7 (by decide)))]
  rfl

/-- The atom representations: the read-out of the atom features and the aggregated sixth message. -/
theorem atoms : W13 m ρ c (Proc.devRef .tc main_v132)
    = atomRows (m ((c : Thread nD τ).loc main_arg0)) (Cert.ReferenceIdeal.Stg.aggOf (Cert.ReferenceIdeal.Stg.msgs (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) 5) (m ((c : Thread nD τ).loc main_arg2))) (m ((c : Thread nD τ).loc main_arg8)) (m ((c : Thread nD τ).loc main_arg9)) := by
  refine (W13_arr m ρ c 5).trans ((Atom6.final (V12 m ρ) c).trans ?_)
  show atomSplit (W12 m ρ c (Proc.devRef .tc main_arg0)) (StableHlo.after hostOps6 (W11 m ρ c) (Proc.devRef .tc main_v128))
      (StableHlo.after hostOps6 (W11 m ρ c) (Proc.devRef .tc main_v129)) (StableHlo.after hostOps6 (W11 m ρ c) (Proc.devRef .tc main_v130))
      (StableHlo.after hostOps6 (W11 m ρ c) (Proc.devRef .tc main_v131)) = _
  rw [Host6.agg, Host6.woa, Host6.wom, Host6.brow, msg5 m ρ c,
    ((Kept.at12 m ρ c main_arg0 (by decide)).trans (Kept.arg1 m ρ c main_arg0 (by decide))), ((Kept.at11 m ρ c main_arg2 (by decide)).trans (Kept.arg1 m ρ c main_arg2 (by decide))), ((Kept.at11 m ρ c main_arg8 (by decide)).trans (Kept.arg1 m ρ c main_arg8 (by decide))), ((Kept.at11 m ρ c main_arg9 (by decide)).trans (Kept.arg1 m ρ c main_arg9 (by decide)))]
  exact atomSplit_slices _ _ _ _ _ _ _

/-- The predictions: the network of the arguments. -/
theorem result : W17 m ρ c (Proc.devRef .tc main_v151)
    = Cert.ReferenceIdeal.Stg.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W17_arr m ρ c 5).trans ((Ffn7.final (V16 m ρ) c).trans ?_)
  show mlpSplit (StableHlo.after hostOps7_2 (W15 m ρ c) (Proc.devRef .tc main_v148)) (W16 m ρ c (Proc.devRef .tc main_arg10))
      (StableHlo.after hostOps7_2 (W15 m ρ c) (Proc.devRef .tc main_v149)) (W16 m ρ c (Proc.devRef .tc main_arg12))
      (StableHlo.after hostOps7_2 (W15 m ρ c) (Proc.devRef .tc main_v150)) = _
  rw [Host7.mv, Host7.b1row, Host7.b2row]
  rw [show W15 m ρ c (Proc.devRef .tc main_v148)
      = StableHlo.after hostOps7_1 (StableHlo.after hostOps7 (W13 m ρ c)) (Proc.devRef .tc main_v148) from rfl,
    Host7.pool, atoms m ρ c,
    ((Kept.at13 m ρ c main_arg5 (by decide)).trans (Kept.arg1 m ρ c main_arg5 (by decide))), ((Kept.at16 m ρ c main_arg10 (by decide)).trans (Kept.arg1 m ρ c main_arg10 (by decide))), ((Kept.at15 m ρ c main_arg11 (by decide)).trans (Kept.arg1 m ρ c main_arg11 (by decide))), ((Kept.at16 m ρ c main_arg12 (by decide)).trans (Kept.arg1 m ρ c main_arg12 (by decide))), ((Kept.at15 m ρ c main_arg13 (by decide)).trans (Kept.arg1 m ρ c main_arg13 (by decide)))]
  exact mlpSplit_rows _ _ _ _ _ _ _

end Cert.KernelIdeal.Chain

end
-- ==== Proof.lean ====
/-
  Kernel against reference, a directed message-passing network over 400000 bonds and 200000 atoms, on the extended reals.

  Both programs compute: the input message `inp = f_bonds · W_i`; the first message `relu inp`; five times the update
  `msg ← relu (inp + D(msg) · W_h)`, where `D(msg)` at bond `e` is the sum of `msg` over the bonds into the source
  atom of `e` minus `msg` at the reverse bond; the atom representations `relu ([f_atoms | A(msg)] · W_o + b_o)` with
  `A(msg)` the sum of `msg` over each atom's bonds; their mean per molecule (zero for an empty molecule); and a
  two-layer perceptron on the molecule vectors. The gathers, neighbour sums and the pooling are host operations, the
  same in both programs. The kernel computes every dense stage in a region, block of rows by block of rows, with
  operands rounded to bfloat16 — the identity on the extended reals — and it splits the read-out's product
  `[f_atoms | A] · W_o` into `f_atoms · W_o[:133] + A · W_o[133:]`: a sum of 261 terms as the sum of its first 133 and
  its last 128, which holds in any commutative monoid. So the equality needs no finiteness; the precondition is not used.

  Modules: LibMpnStages (the stages, entry by entry, and both spellings of each), Inp0 / Upd1–5 / Atom6 / Ffn7 (each region's
  array is the stage of the arrays it found), Kept (the arguments and the input message are left alone), Chain (the
  kernel's fold of segments ends at the network of the arguments), KRun (the kernel's run with its result named),
  RefRun / RefRead / RefStages (the reference's run, its staged reading, and that it is the same network).
-/
import proofs.«152408_j47510928228864_1_alg».proof.Defs
import proofs.«152408_j47510928228864_1_alg».proof.Proof.Gen.Kernel
import proofs.«152408_j47510928228864_1_alg».proof.Proof.Gen.Kernel.Frame
import proofs.«152408_j47510928228864_1_alg».proof.Proof.Gen.KernelIdeal
import proofs.«152408_j47510928228864_1_alg».proof.Proof.Gen.KernelIdeal.Frame
import proofs.«152408_j47510928228864_1_alg».proof.Proof.Gen.ReferenceIdeal
import proofs.«152408_j47510928228864_1_alg».proof.Proof.Gen.Pre_finite_inputs
import proofs.«152408_j47510928228864_1_alg».proof.Proof.RefRun
import proofs.«152408_j47510928228864_1_alg».proof.Proof.RefRead
import proofs.«152408_j47510928228864_1_alg».proof.Proof.RefStages
import proofs.«152408_j47510928228864_1_alg».proof.Proof.KRun
import proofs.«152408_j47510928228864_1_alg».proof.Proof.Chain
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both runs end with the network of the arguments in their result buffers; the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W17 m ρ c (Proc.devRef .tc Cert.KernelIdeal.main_v151), ?_, ?_⟩
  · exact Cert.KernelIdeal.KRun.run (F := Ideal) m ρ
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    rw [Cert.ReferenceIdeal.ReadP.val_main_v170_eq, Cert.ReferenceIdeal.Stg.result_eq, e0, e1, e2, e3, e4, e5, e6, e7, e8, e9, e10,
      e11, e12, e13]
    exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
